-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S320000 : Shape := ⟨1, ![320000]⟩
abbrev S512x512 : Shape := ⟨2, ![512, 512]⟩
abbrev S512 : Shape := ⟨1, ![512]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S512x512 .f32) (main_arg10 : FVec F S512 .f32) (main_v33 : IVec S_ 1) : IVec S_ 1 :=
  let main_v34 : FVec F S512x512 .f32 := Host.absf main_arg9
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg6 : FVec F S512x512 .f32) (main_arg7 : FVec F S512 .f32) (main_arg8 : FVec F S512x512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg8
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg9 main_arg10 main_v33

def fn {F : FTy → Type} [FloatOps F] (main_arg0 : FVec F S20000x512 .f32) (main_arg1 : IVec S320000 32) (main_arg2 : IVec S320000 32) (main_arg3 : FVec F S512x512 .f32) (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_v13 main_v16
-- ==== Kernel.lean ====
abbrev S20000x512 : Shape := ⟨2, ![20000, 512]⟩
abbrev S320000 : Shape := ⟨1, ![320000]⟩
abbrev S512x512 : Shape := ⟨2, ![512, 512]⟩
abbrev S512 : Shape := ⟨1, ![512]⟩
abbrev S1x512 : Shape := ⟨2, ![1, 512]⟩
abbrev S1000x512 : Shape := ⟨2, ![1000, 512]⟩
abbrev S_ : Shape := ⟨0, ![]⟩
abbrev S20000 : Shape := ⟨1, ![20000]⟩
abbrev S320000x1 : Shape := ⟨2, ![320000, 1]⟩
abbrev S20000x1 : Shape := ⟨2, ![20000, 1]⟩
abbrev S320000x512 : Shape := ⟨2, ![320000, 512]⟩

abbrev nBuf : Space → Nat
  | .hbm => 78
  | .vmem => 24
  | .smem => 0
  | _ => 0

abbrev bufTy : (tb : Table) → Fin (tcTables nBuf tb) → BufTy
  | .hbm, ⟨0, _⟩ => ⟨S20000x512, .f32⟩
  | .hbm, ⟨1, _⟩ => ⟨S320000, .i32⟩
  | .hbm, ⟨2, _⟩ => ⟨S320000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S1x512, .f32⟩
  | .hbm, ⟨13, _⟩ => ⟨S20000x512, .f32⟩
  | .hbm, ⟨14, _⟩ => ⟨S_, .f32⟩
  | .hbm, ⟨15, _⟩ => ⟨S320000, .f32⟩
  | .hbm, ⟨16, _⟩ => ⟨S_, .f32⟩
  | .hbm, ⟨17, _⟩ => ⟨S20000, .f32⟩
  | .hbm, ⟨18, _⟩ => ⟨S320000x1, .i32⟩
  | .hbm, ⟨19, _⟩ => ⟨S20000, .f32⟩
  | .hbm, ⟨20, _⟩ => ⟨S_, .f32⟩
  | .hbm, ⟨21, _⟩ => ⟨S_, .f32⟩
  | .hbm, ⟨22, _⟩ => ⟨S20000, .f32⟩
  | .hbm, ⟨23, _⟩ => ⟨S20000, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S20000x1, .f32⟩
  | .hbm, ⟨28, _⟩ => ⟨S20000x512, .f32⟩
  | .hbm, ⟨29, _⟩ => ⟨S20000x512, .f32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x512, .f32⟩
  | .hbm, ⟨39, _⟩ => ⟨S_, .f32⟩
  | .hbm, ⟨40, _⟩ => ⟨S20000x512, .f32⟩
  | .hbm, ⟨41, _⟩ => ⟨S320000x1, .i32⟩
  | .hbm, ⟨42, _⟩ => ⟨S20000x512, .f32⟩
  | .hbm, ⟨43, _⟩ => ⟨S20000x512, .f32⟩
  | .hbm, ⟨44, _⟩ => ⟨S20000x512, .f32⟩
  | .hbm, ⟨45, _⟩ => ⟨S_, .f32⟩
  | .hbm, ⟨46, _⟩ => ⟨S20000x512, .f32⟩
  | .hbm, ⟨47, _⟩ => ⟨S20000x512, .f32⟩
  | .hbm, ⟨48, _⟩ => ⟨S_, .f32⟩
  | .hbm, ⟨49, _⟩ => ⟨S20000x512, .f32⟩
  | .hbm, ⟨50, _⟩ => ⟨S20000x512, .f32⟩
  | .hbm, ⟨51, _⟩ => ⟨S1x512, .f32⟩
  | .hbm, ⟨52, _⟩ => ⟨S20000x512, .f32⟩
  | .hbm, ⟨53, _⟩ => ⟨S20000x512, .f32⟩
  | .hbm, ⟨54, _⟩ => ⟨S20000x512, .f32⟩
  | .hbm, ⟨55, _⟩ => ⟨S_, .i32⟩
  | .hbm, ⟨56, _⟩ => ⟨S320000, .i32⟩
  | .hbm, ⟨57, _⟩ => ⟨S320000, .i1⟩
  | .hbm, ⟨58, _⟩ => ⟨S_, .i32⟩
  | .hbm, ⟨59, _⟩ => ⟨S320000, .i32⟩
  | .hbm, ⟨60, _⟩ => ⟨S320000, .i32⟩
  | .hbm, ⟨61, _⟩ => ⟨S320000, .i32⟩
  | .hbm, ⟨62, _⟩ => ⟨S320000x1, .i32⟩
  | .hbm, ⟨63, _⟩ => ⟨S320000x512, .f32⟩
  | .hbm, ⟨64, _⟩ => ⟨S_, .f32⟩
  | .hbm, ⟨65, _⟩ => ⟨S20000x512, .f32⟩
  | .hbm, ⟨66, _⟩ => ⟨S320000x1, .i32⟩
  | .hbm, ⟨67, _⟩ => ⟨S20000x512, .f32⟩
  | .hbm, ⟨68, _⟩ => ⟨S20000x512, .f32⟩
  | .hbm, ⟨69, _⟩ => ⟨S20000x512, .f32⟩
  | .hbm, ⟨70, _⟩ => ⟨S_, .f32⟩
  | .hbm, ⟨71, _⟩ => ⟨S20000x512, .f32⟩
  | .hbm, ⟨72, _⟩ => ⟨S20000x512, .f32⟩
  | .hbm, ⟨73, _⟩ => ⟨S_, .f32⟩
  | .hbm, ⟨74, _⟩ => ⟨S20000x512, .f32⟩
  | .hbm, ⟨75, _⟩ => ⟨S20000x512, .f32⟩
  | .hbm, ⟨76, _⟩ => ⟨S1x512, .f32⟩
  | .hbm, ⟨77, _⟩ => ⟨S20000x512, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S512x512, .f32⟩
  | .local _ .vmem, ⟨20, _⟩ => ⟨S512x512, .f32⟩
  | .local _ .vmem, ⟨21, _⟩ => ⟨S1x512, .f32⟩
  | .local _ .vmem, ⟨22, _⟩ => ⟨S1000x512, .f32⟩
  | .local _ .vmem, ⟨23, _⟩ => ⟨S1000x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S512x512_S512x512_1_0 : S512x512.Transposes [1, 0] S512x512
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  bcast_S_S20000x512 : S_.BroadcastsInDim S20000x512 (![] : Fin 0 → Fin S20000x512.rank)
  shapeCasts_S1000x512_S1000x512 : S1000x512.ShapeCasts S1000x512
  dot_S1000x512_S512x512_S1000x512_1_0_0_1_n_n_wf : DotDims.WF S1000x512 S512x512 S1000x512 [1] [0] [0] [1] [] []
  scatter_S20000_S320000x1_S320000_n_0_0_1_wf : ScatterDims.WF S20000 S320000x1 S320000 [] [0] [0] 1
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S20000x512.size a
  hwx0_0 : ∀ i : grid0.Coords, EltTy.bits .f32 = 32 ∨ (Rect.block (s := S20000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S20000x512.size a
  hwx0_3 : ∀ i : grid0.Coords, EltTy.bits .f32 = 32 ∨ (Rect.block (s := S20000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S20000x512.size a
  hwx1_0 : ∀ i : grid1.Coords, EltTy.bits .f32 = 32 ∨ (Rect.block (s := S20000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S20000x512.size a
  hwx1_1 : ∀ i : grid1.Coords, EltTy.bits .f32 = 32 ∨ (Rect.block (s := S20000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S20000x512.size a
  hwx1_5 : ∀ i : grid1.Coords, EltTy.bits .f32 = 32 ∨ (Rect.block (s := S20000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S20000x512.size a
  hwx2_1 : ∀ i : grid2.Coords, EltTy.bits .f32 = 32 ∨ (Rect.block (s := S20000x512) S1000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x512.size a ≤ S20000x512.size a
  hwx2_5 : ∀ i : grid2.Coords, EltTy.bits .f32 = 32 ∨ (Rect.block (s := S20000x512) S1000x512.size (cc2_transform_5 i) (hinb2_5 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x512 : Shape := ⟨2, ![20000, 512]⟩
abbrev S320000 : Shape := ⟨1, ![320000]⟩
abbrev S512x512 : Shape := ⟨2, ![512, 512]⟩
abbrev S512 : Shape := ⟨1, ![512]⟩
abbrev S1x512 : Shape := ⟨2, ![1, 512]⟩
abbrev S_ : Shape := ⟨0, ![]⟩
abbrev S20000 : Shape := ⟨1, ![20000]⟩
abbrev S320000x1 : Shape := ⟨2, ![320000, 1]⟩
abbrev S20000x1 : Shape := ⟨2, ![20000, 1]⟩
abbrev S320000x512 : Shape := ⟨2, ![320000, 512]⟩

abbrev nBuf : Space → Nat
  | .hbm => 122
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S320000, .i32⟩
  | .hbm, ⟨2, _⟩ => ⟨S320000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S20000x512, .f32⟩
  | .hbm, ⟨13, _⟩ => ⟨S1x512, .f32⟩
  | .hbm, ⟨14, _⟩ => ⟨S20000x512, .f32⟩
  | .hbm, ⟨15, _⟩ => ⟨S20000x512, .f32⟩
  | .hbm, ⟨16, _⟩ => ⟨S_, .f32⟩
  | .hbm, ⟨17, _⟩ => ⟨S320000, .f32⟩
  | .hbm, ⟨18, _⟩ => ⟨S_, .f32⟩
  | .hbm, ⟨19, _⟩ => ⟨S20000, .f32⟩
  | .hbm, ⟨20, _⟩ => ⟨S320000x1, .i32⟩
  | .hbm, ⟨21, _⟩ => ⟨S20000, .f32⟩
  | .hbm, ⟨22, _⟩ => ⟨S_, .f32⟩
  | .hbm, ⟨23, _⟩ => ⟨S_, .f32⟩
  | .hbm, ⟨24, _⟩ => ⟨S20000, .f32⟩
  | .hbm, ⟨25, _⟩ => ⟨S20000, .f32⟩
  | .hbm, ⟨26, _⟩ => ⟨S_, .f32⟩
  | .hbm, ⟨27, _⟩ => ⟨S20000, .f32⟩
  | .hbm, ⟨28, _⟩ => ⟨S20000, .f32⟩
  | .hbm, ⟨29, _⟩ => ⟨S20000x1, .f32⟩
  | .hbm, ⟨30, _⟩ => ⟨S20000x512, .f32⟩
  | .hbm, ⟨31, _⟩ => ⟨S20000x512, .f32⟩
  | .hbm, ⟨32, _⟩ => ⟨S_, .i32⟩
  | .hbm, ⟨33, _⟩ => ⟨S320000, .i32⟩
  | .hbm, ⟨34, _⟩ => ⟨S320000, .i1⟩
  | .hbm, ⟨35, _⟩ => ⟨S_, .i32⟩
  | .hbm, ⟨36, _⟩ => ⟨S320000, .i32⟩
  | .hbm, ⟨37, _⟩ => ⟨S320000, .i32⟩
  | .hbm, ⟨38, _⟩ => ⟨S320000, .i32⟩
  | .hbm, ⟨39, _⟩ => ⟨S320000x1, .i32⟩
  | .hbm, ⟨40, _⟩ => ⟨S320000x512, .f32⟩
  | .hbm, ⟨41, _⟩ => ⟨S_, .f32⟩
  | .hbm, ⟨42, _⟩ => ⟨S20000x512, .f32⟩
  | .hbm, ⟨43, _⟩ => ⟨S320000x1, .i32⟩
  | .hbm, ⟨44, _⟩ => ⟨S20000x512, .f32⟩
  | .hbm, ⟨45, _⟩ => ⟨S20000x512, .f32⟩
  | .hbm, ⟨46, _⟩ => ⟨S20000x512, .f32⟩
  | .hbm, ⟨47, _⟩ => ⟨S_, .f32⟩
  | .hbm, ⟨48, _⟩ => ⟨S20000x512, .f32⟩
  | .hbm, ⟨49, _⟩ => ⟨S20000x512, .f32⟩
  | .hbm, ⟨50, _⟩ => ⟨S_, .f32⟩
  | .hbm, ⟨51, _⟩ => ⟨S20000x512, .f32⟩
  | .hbm, ⟨52, _⟩ => ⟨S20000x512, .f32⟩
  | .hbm, ⟨53, _⟩ => ⟨S_, .f32⟩
  | .hbm, ⟨54, _⟩ => ⟨S20000x512, .f32⟩
  | .hbm, ⟨55, _⟩ => ⟨S20000x512, .f32⟩
  | .hbm, ⟨56, _⟩ => ⟨S20000x512, .f32⟩
  | .hbm, ⟨57, _⟩ => ⟨S_, .f32⟩
  | .hbm, ⟨58, _⟩ => ⟨S20000x512, .f32⟩
  | .hbm, ⟨59, _⟩ => ⟨S20000x512, .f32⟩
  | .hbm, ⟨60, _⟩ => ⟨S20000x512, .f32⟩
  | .hbm, ⟨61, _⟩ => ⟨S_, .f32⟩
  | .hbm, ⟨62, _⟩ => ⟨S20000x512, .f32⟩
  | .hbm, ⟨63, _⟩ => ⟨S20000x512, .f32⟩
  | .hbm, ⟨64, _⟩ => ⟨S20000x512, .f32⟩
  | .hbm, ⟨65, _⟩ => ⟨S20000x512, .f32⟩
  | .hbm, ⟨66, _⟩ => ⟨S_, .f32⟩
  | .hbm, ⟨67, _⟩ => ⟨S20000x512, .f32⟩
  | .hbm, ⟨68, _⟩ => ⟨S20000x512, .f32⟩
  | .hbm, ⟨69, _⟩ => ⟨S20000x512, .f32⟩
  | .hbm, ⟨70, _⟩ => ⟨S1x512, .f32⟩
  | .hbm, ⟨71, _⟩ => ⟨S20000x512, .f32⟩
  | .hbm, ⟨72, _⟩ => ⟨S20000x512, .f32⟩
  | .hbm, ⟨73, _⟩ => ⟨S_, .f32⟩
  | .hbm, ⟨74, _⟩ => ⟨S20000x512, .f32⟩
  | .hbm, ⟨75, _⟩ => ⟨S20000x512, .f32⟩
  | .hbm, ⟨76, _⟩ => ⟨S20000x512, .f32⟩
  | .hbm, ⟨77, _⟩ => ⟨S20000x512, .f32⟩
  | .hbm, ⟨78, _⟩ => ⟨S_, .i32⟩
  | .hbm, ⟨79, _⟩ => ⟨S320000, .i32⟩
  | .hbm, ⟨80, _⟩ => ⟨S320000, .i1⟩
  | .hbm, ⟨81, _⟩ => ⟨S_, .i32⟩
  | .hbm, ⟨82, _⟩ => ⟨S320000, .i32⟩
  | .hbm, ⟨83, _⟩ => ⟨S320000, .i32⟩
  | .hbm, ⟨84, _⟩ => ⟨S320000, .i32⟩
  | .hbm, ⟨85, _⟩ => ⟨S320000x1, .i32⟩
  | .hbm, ⟨86, _⟩ => ⟨S320000x512, .f32⟩
  | .hbm, ⟨87, _⟩ => ⟨S_, .f32⟩
  | .hbm, ⟨88, _⟩ => ⟨S20000x512, .f32⟩
  | .hbm, ⟨89, _⟩ => ⟨S320000x1, .i32⟩
  | .hbm, ⟨90, _⟩ => ⟨S20000x512, .f32⟩
  | .hbm, ⟨91, _⟩ => ⟨S20000x512, .f32⟩
  | .hbm, ⟨92, _⟩ => ⟨S20000x512, .f32⟩
  | .hbm, ⟨93, _⟩ => ⟨S_, .f32⟩
  | .hbm, ⟨94, _⟩ => ⟨S20000x512, .f32⟩
  | .hbm, ⟨95, _⟩ => ⟨S20000x512, .f32⟩
  | .hbm, ⟨96, _⟩ => ⟨S_, .f32⟩
  | .hbm, ⟨97, _⟩ => ⟨S20000x512, .f32⟩
  | .hbm, ⟨98, _⟩ => ⟨S20000x512, .f32⟩
  | .hbm, ⟨99, _⟩ => ⟨S_, .f32⟩
  | .hbm, ⟨100, _⟩ => ⟨S20000x512, .f32⟩
  | .hbm, ⟨101, _⟩ => ⟨S20000x512, .f32⟩
  | .hbm, ⟨102, _⟩ => ⟨S20000x512, .f32⟩
  | .hbm, ⟨103, _⟩ => ⟨S_, .f32⟩
  | .hbm, ⟨104, _⟩ => ⟨S20000x512, .f32⟩
  | .hbm, ⟨105, _⟩ => ⟨S20000x512, .f32⟩
  | .hbm, ⟨106, _⟩ => ⟨S20000x512, .f32⟩
  | .hbm, ⟨107, _⟩ => ⟨S_, .f32⟩
  | .hbm, ⟨108, _⟩ => ⟨S20000x512, .f32⟩
  | .hbm, ⟨109, _⟩ => ⟨S20000x512, .f32⟩
  | .hbm, ⟨110, _⟩ => ⟨S20000x512, .f32⟩
  | .hbm, ⟨111, _⟩ => ⟨S20000x512, .f32⟩
  | .hbm, ⟨112, _⟩ => ⟨S_, .f32⟩
  | .hbm, ⟨113, _⟩ => ⟨S20000x512, .f32⟩
  | .hbm, ⟨114, _⟩ => ⟨S20000x512, .f32⟩
  | .hbm, ⟨115, _⟩ => ⟨S20000x512, .f32⟩
  | .hbm, ⟨116, _⟩ => ⟨S1x512, .f32⟩
  | .hbm, ⟨117, _⟩ => ⟨S20000x512, .f32⟩
  | .hbm, ⟨118, _⟩ => ⟨S20000x512, .f32⟩
  | .hbm, ⟨119, _⟩ => ⟨S_, .f32⟩
  | .hbm, ⟨120, _⟩ => ⟨S20000x512, .f32⟩
  | .hbm, ⟨121, _⟩ => ⟨S20000x512, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_11 : Ref sig .tc := ⟨.hbm, 78, rfl⟩
abbrev main_v50 : Ref sig .tc := ⟨.hbm, 79, rfl⟩
abbrev main_v51 : Ref sig .tc := ⟨.hbm, 80, rfl⟩
abbrev main_c_12 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_v65 : Ref sig .tc := ⟨.hbm, 98, rfl⟩
abbrev main_cst_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_17 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_18 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_19 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_call2_cst : Ref sig .tc := ⟨.hbm, 119, rfl⟩
abbrev main_call2_v0 : Ref sig .tc := ⟨.hbm, 120, rfl⟩
abbrev main_v82 : Ref sig .tc := ⟨.hbm, 121, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  bcast_S_S20000x512 : S_.BroadcastsInDim S20000x512 (![] : Fin 0 → Fin S20000x512.rank)
  dot_S20000x512_S512x512_S20000x512_1_0_0_1_n_n_wf : DotDims.WF S20000x512 S512x512 S20000x512 [1] [0] [0] [1] [] []
  scatter_S20000_S320000x1_S320000_n_0_0_1_wf : ScatterDims.WF S20000 S320000x1 S320000 [] [0] [0] 1
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf

class Facts : Prop extends Facts₀ where

variable [Facts]
-- ==== Proof.GraphNet.lean ====
/-
  The network both programs compute, as functions of whole arrays.

  Nodes carry 512 features; the 320000 edges are given by two index arrays (source, destination).
    * affine: x·w + b (b splat along the nodes); project: the initial features, affine at the transposed weight.
    * degNorm: per node, (max 1 (number of edges arriving))^(-1/2), as a column.
    * aggregate: scale the features by the column, carry each edge's source row to its destination and sum,
      scale by the column again and by 0.9.
    * initial: 0.1 · the initial features.
    * combine: max 0 (c₁·f + c₂·(f·w₁) + c₁·f₀ + c₂·(f₀·w₂) + b), b splat along the nodes.
  A layer is combine of (aggregate of the layer's input) and (initial of the projection); the network is two
  layers over the projection with the words of 1 - log 2, log 2 and then 1 - log 1.5, log 1.5.

  The stages are spelled with the reference program's own host operations, so that the reference's run term is
  their composition on the nose; the kernel side is brought to the same stages, region by region.
-/
import proofs.«175265_j53145925321199_1_alg».proof.Proof.Gen.ReferenceIdeal.Run

noncomputable section

namespace Cert.GraphNet

open Cert.ReferenceIdeal Cert.ReferenceIdeal.Gen Idealize.ShloMosaic Idealize.ShloMosaic.TcCoe Idealize.SL.Sem

variable {F : FTy → Type} [FloatOps F]

/-- A float word splat over the node-feature array. -/
def splat (w : BitVec 32) : (⟨S20000x512, .f32⟩ : BufTy).Contents (Elt F) :=
  broadcastInDim S20000x512 ![] bcast_S_S20000x512 (constant S_ .f32 w)

/-- A 512-vector splat along the nodes. -/
def rowSplat (b : (⟨S512, .f32⟩ : BufTy).Contents (Elt F)) : (⟨S20000x512, .f32⟩ : BufTy).Contents (Elt F) :=
  broadcastInDim S20000x512 ![0, 1] bcast_S1x512_S20000x512_0_1 (broadcastInDim S1x512 ![1] bcast_S512_S1x512_1 b)

/-- A per-node column splat along the features. -/
def colSplat (n : (⟨S20000x1, .f32⟩ : BufTy).Contents (Elt F)) : (⟨S20000x512, .f32⟩ : BufTy).Contents (Elt F) :=
  broadcastInDim S20000x512 ![0, 1] bcast_S20000x1_S20000x512_0_1 n

/-- The matrix product of node features with a 512×512 weight. -/
def times (x : (⟨S20000x512, .f32⟩ : BufTy).Contents (Elt F)) (w : (⟨S512x512, .f32⟩ : BufTy).Contents (Elt F)) :
    (⟨S20000x512, .f32⟩ : BufTy).Contents (Elt F) :=
  Host.dotGeneral dot_S20000x512_S512x512_S20000x512_1_0_0_1_n_n none x w

/-- x·w + b, b splat along the nodes. -/
def affine (x : (⟨S20000x512, .f32⟩ : BufTy).Contents (Elt F)) (w : (⟨S512x512, .f32⟩ : BufTy).Contents (Elt F))
    (b : (⟨S512, .f32⟩ : BufTy).Contents (Elt F)) : (⟨S20000x512, .f32⟩ : BufTy).Contents (Elt F) :=
  addf (times x w) (rowSplat b)

/-- The initial features: x·wᵀ + b. -/
def project (x : (⟨S20000x512, .f32⟩ : BufTy).Contents (Elt F)) (w : (⟨S512x512, .f32⟩ : BufTy).Contents (Elt F))
    (b : (⟨S512, .f32⟩ : BufTy).Contents (Elt F)) : (⟨S20000x512, .f32⟩ : BufTy).Contents (Elt F) :=
  affine x (transpose S512x512 [1, 0] w transposes_S512x512_S512x512_1_0) b

/-- Per node, (max 1 (edges arriving))^(-1/2), as a column. -/
def degNorm (dst : (⟨S320000, .i32⟩ : BufTy).Contents (Elt F)) : (⟨S20000x1, .f32⟩ : BufTy).Contents (Elt F) :=
  broadcastInDim S20000x1 ![0] bcast_S20000_S20000x1_0 (Host.powf (maximumf (broadcastInDim S20000 ![] bcast_S_S20000 (id (constant S_ .f32 0x3F800000#32))) (Host.scatterAdd scatter_S20000_S320000x1_S320000_n_0_0_1 (broadcastInDim S20000 ![] bcast_S_S20000 (constant S_ .f32 0x00000000#32)) (broadcastInDim S320000x1 ![0] bcast_S320000_S320000x1_0 dst) (broadcastInDim S320000 ![] bcast_S_S320000 (constant S_ .f32 0x3F800000#32)))) (broadcastInDim S20000 ![] bcast_S_S20000 (constant S_ .f32 0xBF000000#32)))

/-- Scale by the column, sum each edge's source row into its destination, scale by the column and by 0.9. -/
def aggregate (h : (⟨S20000x512, .f32⟩ : BufTy).Contents (Elt F)) (n : (⟨S20000x1, .f32⟩ : BufTy).Contents (Elt F))
    (src dst : (⟨S320000, .i32⟩ : BufTy).Contents (Elt F)) : (⟨S20000x512, .f32⟩ : BufTy).Contents (Elt F) :=
  mulf (mulf (Host.scatterAdd scatter_S20000x512_S320000x1_S320000x512_1_0_0_1 (splat 0x00000000#32) (broadcastInDim S320000x1 ![0] bcast_S320000_S320000x1_0 dst) (Host.gather gather_S20000x512_S320000x1_S320000x512_1_0_n_n_0_1_1512 (mulf h (colSplat n)) (broadcastInDim S320000x1 ![0] bcast_S320000_S320000x1_0 (select (cmpi .slt src (broadcastInDim S320000 ![] bcast_S_S320000 (constantI S_ 32 0#32))) (addi src (broadcastInDim S320000 ![] bcast_S_S320000 (constantI S_ 32 20000#32))) src)))) (colSplat n)) (splat 0x3F666666#32)

/-- 0.1 · the initial features. -/
def initial (h : (⟨S20000x512, .f32⟩ : BufTy).Contents (Elt F)) : (⟨S20000x512, .f32⟩ : BufTy).Contents (Elt F) :=
  mulf h (splat 0x3DCCCCCD#32)

/-- max 0 (c₁·f + c₂·(f·w₁) + c₁·f₀ + c₂·(f₀·w₂) + b). -/
def combine (c₁ c₂ : BitVec 32) (f f₀ : (⟨S20000x512, .f32⟩ : BufTy).Contents (Elt F))
    (w₁ w₂ : (⟨S512x512, .f32⟩ : BufTy).Contents (Elt F)) (b : (⟨S512, .f32⟩ : BufTy).Contents (Elt F)) :
    (⟨S20000x512, .f32⟩ : BufTy).Contents (Elt F) :=
  maximumf (addf (addf (addf (addf (mulf (splat c₁) f) (mulf (splat c₂) (times f w₁))) (mulf (splat c₁) f₀)) (mulf (splat c₂) (times f₀ w₂))) (rowSplat b)) (splat 0x00000000#32)

/-- One layer over the projection `h₀` and the layer's input `h`. -/
def layer (c₁ c₂ : BitVec 32) (h₀ h : (⟨S20000x512, .f32⟩ : BufTy).Contents (Elt F)) (n : (⟨S20000x1, .f32⟩ : BufTy).Contents (Elt F))
    (src dst : (⟨S320000, .i32⟩ : BufTy).Contents (Elt F)) (w₁ w₂ : (⟨S512x512, .f32⟩ : BufTy).Contents (Elt F))
    (b : (⟨S512, .f32⟩ : BufTy).Contents (Elt F)) : (⟨S20000x512, .f32⟩ : BufTy).Contents (Elt F) :=
  combine c₁ c₂ (aggregate h n src dst) (initial h₀) w₁ w₂ b

/-- The two layers over a projection `h` and a column `n`. -/
def layers (h : (⟨S20000x512, .f32⟩ : BufTy).Contents (Elt F)) (n : (⟨S20000x1, .f32⟩ : BufTy).Contents (Elt F))
    (src dst : (⟨S320000, .i32⟩ : BufTy).Contents (Elt F))
    (w₁ w₂ : (⟨S512x512, .f32⟩ : BufTy).Contents (Elt F)) (b : (⟨S512, .f32⟩ : BufTy).Contents (Elt F))
    (v₁ v₂ : (⟨S512x512, .f32⟩ : BufTy).Contents (Elt F)) (d : (⟨S512, .f32⟩ : BufTy).Contents (Elt F)) :
    (⟨S20000x512, .f32⟩ : BufTy).Contents (Elt F) :=
  layer 0x3F183370#32 0x3ECF991F#32 h (layer 0x3E9D1BD0#32 0x3F317218#32 h h n src dst w₁ w₂ b) n src dst v₁ v₂ d

/-- The network of the eleven argument arrays. -/
def network (x : (⟨S20000x512, .f32⟩ : BufTy).Contents (Elt F)) (src dst : (⟨S320000, .i32⟩ : BufTy).Contents (Elt F))
    (w : (⟨S512x512, .f32⟩ : BufTy).Contents (Elt F)) (b₀ : (⟨S512, .f32⟩ : BufTy).Contents (Elt F))
    (w₁ w₂ : (⟨S512x512, .f32⟩ : BufTy).Contents (Elt F)) (b : (⟨S512, .f32⟩ : BufTy).Contents (Elt F))
    (v₁ v₂ : (⟨S512x512, .f32⟩ : BufTy).Contents (Elt F)) (d : (⟨S512, .f32⟩ : BufTy).Contents (Elt F)) :
    (⟨S20000x512, .f32⟩ : BufTy).Contents (Elt F) :=
  layers (project x w b₀) (degNorm dst) src dst w₁ w₂ b v₁ v₂ d

set_option maxRecDepth 16384 in
/-- The reference's run term is the network of its argument arrays: operation for operation the same tree. -/
theorem reference_eq (m : (ℓ : Loc nD τ sig) → Buf (Elt F) ℓ) (c : Dev nD) :
    Cert.ReferenceIdeal.Value.res_main_v82 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v82 network layers layer combine aggregate initial degNorm project affine times colSplat rowSplat splat
  rfl

end Cert.GraphNet

end
-- ==== Proof.ResultRun.lean ====
/-
  The idealized kernel's run with its result named.

  The program is three pipelined regions among stretches of host operations.  Reading the buffers at each
  segment boundary as a fold from the launch memory — a host stretch applies its operations, a region leaves
  its output array at what its write-backs fold to and every other buffer as entered — the run ends with every
  unscoped buffer at the last boundary's contents.  Here that final state is read at the result buffer as well
  as at the eleven argument arrays: every weakly fair execution terminates, nothing faults, the result buffer
  holds the last boundary's contents at it, and each argument is as launched.
-/
import proofs.«175265_j53145925321199_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- Every weakly fair execution ends with the result buffer at the last boundary's contents and the arguments as
    launched: the final thread state holds every unscoped buffer at those contents, and the result buffer and the
    arguments are among them. -/
theorem run_result : θ_run defs (onTc (τ := τ) (main (F := F))) ⟨m, fun _ => 0, ρ⟩ (fun r => ∀ c : Dev nD,
      r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v50 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.ResultRun

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.Payloads.lean ====
/-
  What each kernel body stores, entry by entry, over the extended reals.

  The linear body stores, at row p and feature q of its block, Σₖ x(p,k)·w(k,q) + b(0,q): its matrix product
  accumulates into the zero splat, the roundings to the narrow format are the identity, and the one-row bias is
  repeated down the rows.  The combining body stores
  max 0 (c₁·f(p,q) + c₂·Σₖ f(p,k)·w₁(k,q) + c₁·f₀(p,q) + c₂·Σₖ f₀(p,k)·w₂(k,q) + b(0,q)),
  the sums and products taken in exactly that order; the two combining regions differ only in the words c₁, c₂.
-/
import proofs.«175265_j53145925321199_1_alg».proof.Proof.Gen.KernelIdeal.Skeleton
import proofs.«175265_j53145925321199_1_alg».proof.Proof.LibPlainDot
import Idealize.ShloMosaic.Lib.Pipeline.Value

noncomputable section

open scoped BigOperators

namespace Cert.KernelIdeal.Payloads

open Cert.KernelIdeal Cert.KernelIdeal.Gen Idealize.ShloMosaic Idealize.ShloMosaic.ValueIdx

/-- A block's matrix product into the zero splat, at (p, q): the sum over k of the products. -/
theorem product_entry (a : FVec Ideal S1000x512 .bf16) (b : FVec Ideal S512x512 .bf16) (p : Fin 1000) (q : Fin 512) :
    matmul dot_S1000x512_S512x512_S1000x512_1_0_0_1_n_n none a b (constant S1000x512 .f32 0x00000000#32) (ix2 p q)
      = ∑ k : Fin 512, a (ix2 p k) * b (ix2 k q) :=
  PlainDot.matmul_zero_apply (M := 1000) (K := 512) (N := 512) none a b p q

/-- A one-row matrix repeated down a block's rows, at (p, q): its entry (0, q). -/
theorem rowBroadcast_entry (v : FVec Ideal S1x512 .f32) (p : Fin 1000) (q : Fin 512) :
    broadcastTo S1000x512 v broadcasts_S1x512_S1000x512 (ix2 p q) = v (ix2 (0 : Fin 1) q) :=
  broadcastTo_apply v broadcasts_S1x512_S1000x512 (ix2 p q) (ix2 (0 : Fin 1) q)
    (fun a => match a with | ⟨0, _⟩ => rfl | ⟨1, _⟩ => rfl)

/-- The linear body's stored value at (p, q). -/
theorem k0_pay1_entry (x0 : Vec Ideal S1000x512 .f32) (x1 : Vec Ideal S512x512 .f32) (x2 : Vec Ideal S1x512 .f32)
    (p : Fin 1000) (q : Fin 512) :
    k0_pay1 (F := Ideal) x0 x1 x2 (ix2 p q)
      = (∑ k : Fin 512, x0 (ix2 p k) * x1 (ix2 k q)) + x2 (ix2 (0 : Fin 1) q) := by
  unfold k0_pay1
  simp only [shapeCast_self, addf_apply, product_entry, rowBroadcast_entry, truncf_apply]

/-- The first combining body's stored value at (p, q). -/
theorem k1_pay1_entry (c₁ c₂ : BitVec 32) (x0 x1 : Vec Ideal S1000x512 .f32) (x2 x3 : Vec Ideal S512x512 .f32) (x4 : Vec Ideal S1x512 .f32)
    (p : Fin 1000) (q : Fin 512) (h : c₁ = 0x3E9D1BD0#32 ∧ c₂ = 0x3F317218#32) :
    k1_pay1 (F := Ideal) x0 x1 x2 x3 x4 (ix2 p q)
      = max (Ideal.ofBits .f32 c₁ * x0 (ix2 p q) + Ideal.ofBits .f32 c₂ * (∑ k : Fin 512, x0 (ix2 p k) * x2 (ix2 k q))
            + Ideal.ofBits .f32 c₁ * x1 (ix2 p q) + Ideal.ofBits .f32 c₂ * (∑ k : Fin 512, x1 (ix2 p k) * x3 (ix2 k q))
            + x4 (ix2 (0 : Fin 1) q)) (Ideal.ofBits .f32 0x00000000#32) := by
  obtain ⟨rfl, rfl⟩ := h
  unfold k1_pay1
  simp only [shapeCast_self, maximumf_apply, addf_apply, mulf_apply, broadcast_apply, product_entry, rowBroadcast_entry,
    truncf_apply]
  rfl

/-- The second combining body's stored value at (p, q). -/
theorem k2_pay1_entry (c₁ c₂ : BitVec 32) (x0 x1 : Vec Ideal S1000x512 .f32) (x2 x3 : Vec Ideal S512x512 .f32) (x4 : Vec Ideal S1x512 .f32)
    (p : Fin 1000) (q : Fin 512) (h : c₁ = 0x3F183370#32 ∧ c₂ = 0x3ECF991F#32) :
    k2_pay1 (F := Ideal) x0 x1 x2 x3 x4 (ix2 p q)
      = max (Ideal.ofBits .f32 c₁ * x0 (ix2 p q) + Ideal.ofBits .f32 c₂ * (∑ k : Fin 512, x0 (ix2 p k) * x2 (ix2 k q))
            + Ideal.ofBits .f32 c₁ * x1 (ix2 p q) + Ideal.ofBits .f32 c₂ * (∑ k : Fin 512, x1 (ix2 p k) * x3 (ix2 k q))
            + x4 (ix2 (0 : Fin 1) q)) (Ideal.ofBits .f32 0x00000000#32) := by
  obtain ⟨rfl, rfl⟩ := h
  unfold k2_pay1
  simp only [shapeCast_self, maximumf_apply, addf_apply, mulf_apply, broadcast_apply, product_entry, rowBroadcast_entry,
    truncf_apply]
  rfl

end Cert.KernelIdeal.Payloads

end
-- ==== Proof.Formulas.lean ====
/-
  The two dense stages, entry by entry, over the extended reals.

  For node r and feature q:
    * the affine stage is  Σₖ x(r,k)·w(k,q) + b(0,q);
    * the combining stage is  max z (c₁·f(r,q) + c₂·Σₖ f(r,k)·w₁(k,q) + c₁·f₀(r,q) + c₂·Σₖ f₀(r,k)·w₂(k,q) + b(0,q)),
  the bias kept as a one-row matrix.  Both are stated at a pair of coordinates and as functions of an index of the
  20000×512 array.  No law of the extended reals is used beyond reading a sum and a product entry by entry: the
  two programs form the same expression in the same order.
-/
import Idealize.ShloMosaic.Lib.ValueIdx
import Idealize.ShloMosaic.PureOps.Ideal

noncomputable section

open scoped BigOperators

namespace Cert.GraphNet

open Idealize.ShloMosaic Idealize.ShloMosaic.ValueIdx

/-- Entry (r, q) of x·w + b. -/
def affineRC (x : (⟨2, ![20000, 512]⟩ : Shape).Idx → EReal) (w : (⟨2, ![512, 512]⟩ : Shape).Idx → EReal)
    (b : (⟨2, ![1, 512]⟩ : Shape).Idx → EReal) (r : Fin 20000) (q : Fin 512) : EReal :=
  (∑ k : Fin 512, x (ix2 r k) * w (ix2 k q)) + b (ix2 (0 : Fin 1) q)

/-- x·w + b as a function of the array's index. -/
def affineAt (x : (⟨2, ![20000, 512]⟩ : Shape).Idx → EReal) (w : (⟨2, ![512, 512]⟩ : Shape).Idx → EReal)
    (b : (⟨2, ![1, 512]⟩ : Shape).Idx → EReal) : (⟨2, ![20000, 512]⟩ : Shape).Idx → EReal :=
  fun i => affineRC x w b ⟨(i 0).val, idx2_lt0 i⟩ ⟨(i 1).val, idx2_lt1 i⟩

theorem affineAt_ix2 (x : (⟨2, ![20000, 512]⟩ : Shape).Idx → EReal) (w : (⟨2, ![512, 512]⟩ : Shape).Idx → EReal)
    (b : (⟨2, ![1, 512]⟩ : Shape).Idx → EReal) (r : Fin 20000) (q : Fin 512) :
    affineAt x w b (ix2 r q) = affineRC x w b r q := rfl

/-- Entry (r, q) of the combining stage, with the scalars c₁, c₂ and the floor z. -/
def combineRC (c₁ c₂ z : EReal) (f f₀ : (⟨2, ![20000, 512]⟩ : Shape).Idx → EReal)
    (w₁ w₂ : (⟨2, ![512, 512]⟩ : Shape).Idx → EReal) (b : (⟨2, ![1, 512]⟩ : Shape).Idx → EReal)
    (r : Fin 20000) (q : Fin 512) : EReal :=
  max (c₁ * f (ix2 r q) + c₂ * (∑ k : Fin 512, f (ix2 r k) * w₁ (ix2 k q)) + c₁ * f₀ (ix2 r q)
        + c₂ * (∑ k : Fin 512, f₀ (ix2 r k) * w₂ (ix2 k q)) + b (ix2 (0 : Fin 1) q)) z

/-- The combining stage as a function of the array's index. -/
def combineAt (c₁ c₂ z : EReal) (f f₀ : (⟨2, ![20000, 512]⟩ : Shape).Idx → EReal)
    (w₁ w₂ : (⟨2, ![512, 512]⟩ : Shape).Idx → EReal) (b : (⟨2, ![1, 512]⟩ : Shape).Idx → EReal) :
    (⟨2, ![20000, 512]⟩ : Shape).Idx → EReal :=
  fun i => combineRC c₁ c₂ z f f₀ w₁ w₂ b ⟨(i 0).val, idx2_lt0 i⟩ ⟨(i 1).val, idx2_lt1 i⟩

theorem combineAt_ix2 (c₁ c₂ z : EReal) (f f₀ : (⟨2, ![20000, 512]⟩ : Shape).Idx → EReal)
    (w₁ w₂ : (⟨2, ![512, 512]⟩ : Shape).Idx → EReal) (b : (⟨2, ![1, 512]⟩ : Shape).Idx → EReal)
    (r : Fin 20000) (q : Fin 512) :
    combineAt c₁ c₂ z f f₀ w₁ w₂ b (ix2 r q) = combineRC c₁ c₂ z f f₀ w₁ w₂ b r q := rfl

end Cert.GraphNet

end
-- ==== Proof.Region0.lean ====
/-
  What the linear region leaves in its output array, for any contents the region is entered from.

  The grid has 20 points; point t works on rows 1000·t … 1000·t + 999 of the feature array and of the output, and on
  the whole of the weight and of the one-row bias.  Its body stores Σₖ x(p,k)·w(k,q) + b(0,q) at entry (p, q) of its
  block, and the block's entry (p, q) is the array's entry (1000·t + p, q): what point t writes back is block t of the
  affine stage of the whole arrays.  The twenty blocks tile the 20000 rows, so the array ends holding that stage.
-/
import proofs.«175265_j53145925321199_1_alg».proof.Proof.Gen.KernelIdeal.Frame
import proofs.«175265_j53145925321199_1_alg».proof.Proof.Payloads
import proofs.«175265_j53145925321199_1_alg».proof.Proof.Formulas

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem Cert.GraphNet
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The block index maps over the grid: the row blocks move with the point, the weight and the bias stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 20 := lt_of_lt_of_eq t.isLt N_0

theorem row_lt (t : Fin cfg0.N) (p : Fin 1000) : t.val * 1000 + p.val < 20000 := by
  have := point_lt t; have := p.isLt; omega

/-- The feature block at point t is rows 1000·t … of its array. -/
theorem read_x (c : Dev nD) (t : Fin cfg0.N) (p : Fin 1000) (k : Fin 512) :
    iblk0 V c 0 t (ix2 p k) = V c main_arg0 (ix2 ⟨t.val * 1000 + p.val, row_lt t p⟩ k) := by
  unfold iblk0
  rw [View.read_apply]
  show V c main_arg0 _ = V c main_arg0 _
  refine congrArg (V c main_arg0) (funext fun a => Fin.ext ?_)
  obtain ⟨e0, e1, -⟩ := index_facts t
  match a with
  | ⟨0, _⟩ => show win0_0.index t (0 : Fin 2) * 1000 + 1 * p.val = t.val * 1000 + p.val; rw [e0]; omega
  | ⟨1, _⟩ => show win0_0.index t (1 : Fin 2) * 512 + 1 * k.val = k.val; rw [e1]; omega

/-- The weight's block is the whole weight at every point. -/
theorem read_w (c : Dev nD) (t : Fin cfg0.N) (k q : Fin 512) :
    iblk0 V c 1 t (ix2 k q) = V c main_v0 (ix2 k q) := by
  unfold iblk0
  rw [View.read_apply]
  show V c main_v0 _ = V c main_v0 _
  refine congrArg (V c main_v0) (funext fun a => Fin.ext ?_)
  obtain ⟨-, -, e0, e1, -⟩ := index_facts t
  match a with
  | ⟨0, _⟩ => show win0_1.index t (0 : Fin 2) * 512 + 1 * k.val = k.val; rw [e0]; omega
  | ⟨1, _⟩ => show win0_1.index t (1 : Fin 2) * 512 + 1 * q.val = q.val; rw [e1]; omega

/-- The bias block is the whole one-row bias at every point. -/
theorem read_b (c : Dev nD) (t : Fin cfg0.N) (q : Fin 512) :
    iblk0 V c 2 t (ix2 (0 : Fin 1) q) = V c main_v1 (ix2 (0 : Fin 1) q) := by
  unfold iblk0
  rw [View.read_apply]
  show V c main_v1 _ = V c main_v1 _
  refine congrArg (V c main_v1) (funext fun a => Fin.ext ?_)
  obtain ⟨-, -, -, -, e0, e1, -⟩ := index_facts t
  match a with
  | ⟨0, _⟩ => show win0_2.index t (0 : Fin 2) * 1 + 1 * 0 = 0; rw [e0]
  | ⟨1, _⟩ => show win0_2.index t (1 : Fin 2) * 512 + 1 * q.val = q.val; rw [e1]; omega

/-- The affine stage of the arrays the region is entered from. -/
abbrev stage (c : Dev nD) : S20000x512.Idx → EReal :=
  affineAt (V c main_arg0) (V c main_v0) (V c main_v1)

/-- What point t writes back is block t of the affine stage. -/
theorem flushed_eq (c : Dev nD) (t : Fin cfg0.N) :
    (dat0 V c).flushed 3 t = ((cfg0.win 3).blk t).view.read (Elt Ideal) (stage V c) := by
  show (cfg0.win 3).cut (grid0.coords t) ((dat0 V c).after 3 t) = _
  rw [after0_3]
  unfold out0_3
  rw [View.canon_unit_zero zeros]
  simp only [View.ld_unit_zero (S := S1000x512) zeros, View.ld_unit_zero (S := S512x512) zeros,
    View.ld_unit_zero (S := S1x512) zeros]
  funext y
  obtain ⟨p, q, rfl⟩ : ∃ (p : Fin 1000) (q : Fin 512), y = ix2 p q := ⟨y 0, y 1, eq_ix2 y⟩
  have hemb : ((cfg0.win 3).blk t).view.emb (ix2 p q) = ix2 ⟨t.val * 1000 + p.val, row_lt t p⟩ q := by
    obtain ⟨-, -, -, -, -, -, e0, e1⟩ := index_facts t
    funext a
    apply Fin.ext
    match a with
    | ⟨0, _⟩ => show win0_3.index t (0 : Fin 2) * 1000 + 1 * p.val = t.val * 1000 + p.val; rw [e0]; omega
    | ⟨1, _⟩ => show win0_3.index t (1 : Fin 2) * 512 + 1 * q.val = q.val; rw [e1]; omega
  rw [View.read_apply, hemb]
  show k0_pay1 (iblk0 V c 0 t) (iblk0 V c 1 t) (iblk0 V c 2 t) (ix2 p q)
      = affineAt _ _ _ (ix2 ⟨t.val * 1000 + p.val, row_lt t p⟩ q)
  refine (Payloads.k0_pay1_entry (iblk0 V c 0 t) (iblk0 V c 1 t) (iblk0 V c 2 t) p q).trans ?_
  rw [affineAt_ix2]
  unfold affineRC
  simp only [read_x V c t, read_w V c t, read_b V c t]

/-- An index lies in point t's block iff each coordinate lies in the block's range. -/
theorem mem_blk (t : Fin cfg0.N) (i : S20000x512.Idx) :
    i ∈ ((cfg0.win 3).blk t).view.set ↔ ∀ a : Fin 2, win0_3.index t a * S1000x512.size a ≤ (i a).val
      ∧ (i a).val < win0_3.index t a * S1000x512.size a + S1000x512.size a := by
  show i ∈ ((View.whole main_v2).slice (win0_3.rect t)).set ↔ _
  rw [View.set_slice_whole, Rect.mem_set_unit]
  exact Iff.rfl

/-- Every index lies in the block of the point its row falls in. -/
theorem cover (i : S20000x512.Idx) :
    ∃ t : Fin cfg0.N, (cfg0.win 3).flush t = true ∧ i ∈ ((cfg0.win 3).blk t).view.set := by
  have hi0 : (i 0).val < 20000 := (i 0).isLt
  have hi1 : (i 1).val < 512 := (i 1).isLt
  have hN : (i 0).val / 1000 < cfg0.N := lt_of_lt_of_eq (by omega : (i 0).val / 1000 < 20) N_0.symm
  refine ⟨⟨(i 0).val / 1000, hN⟩, flush0_3 _, ?_⟩
  rw [mem_blk]
  obtain ⟨-, -, -, -, -, -, e0, e1⟩ := index_facts ⟨(i 0).val / 1000, hN⟩
  intro a
  match a with
  | ⟨0, _⟩ =>
    show win0_3.index ⟨(i 0).val / 1000, hN⟩ (0 : Fin 2) * 1000 ≤ (i 0).val
      ∧ (i 0).val < win0_3.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win0_3.index ⟨(i 0).val / 1000, hN⟩ (1 : Fin 2) * 512 ≤ (i 1).val
      ∧ (i 1).val < win0_3.index ⟨(i 0).val / 1000, hN⟩ (1 : Fin 2) * 512 + 512
    rw [e1]; omega

/-- The output array after the region: the affine stage of the arrays it was entered from. -/
theorem final (c : Dev nD) : (dat0 V c).arrAt 3 cfg0.N = stage V c :=
  (dat0 V c).arrAt_eq_of_cover 3 (stage V c) (fun t _ => flushed_eq V c t) cover

end Cert.KernelIdeal.Region0

end
-- ==== Proof.Region1.lean ====
/-
  What the first combining region leaves in its output array, for any contents the region is entered from.

  The grid has 20 points; point t works on rows 1000·t … 1000·t + 999 of the two feature arrays and of the output,
  and on the whole of the two weights and of the one-row bias.  Its body stores the combining stage's value at each
  entry of its block, computed from those blocks; a block's entry (p, q) is the array's entry (1000·t + p, q), so
  what point t writes back is block t of the combining stage of the whole arrays.  The twenty blocks tile the
  20000 rows (row r lies in block r / 1000), hence the array ends holding that stage everywhere.
-/
import proofs.«175265_j53145925321199_1_alg».proof.Proof.Gen.KernelIdeal.Frame
import proofs.«175265_j53145925321199_1_alg».proof.Proof.Payloads
import proofs.«175265_j53145925321199_1_alg».proof.Proof.Formulas

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem Cert.GraphNet
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The block index maps over the grid: the row blocks move with the point, the weights and the bias stay. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 := lt_of_lt_of_eq t.isLt N_1

theorem row_lt (t : Fin cfg1.N) (p : Fin 1000) : t.val * 1000 + p.val < 20000 := by
  have := point_lt t; have := p.isLt; omega

/-- The first feature block at point t is rows 1000·t … of its array. -/
theorem read_f (c : Dev nD) (t : Fin cfg1.N) (p : Fin 1000) (k : Fin 512) :
    iblk1 V c 0 t (ix2 p k) = V c main_v26 (ix2 ⟨t.val * 1000 + p.val, row_lt t p⟩ k) := by
  unfold iblk1
  rw [View.read_apply]
  show V c main_v26 _ = V c main_v26 _
  refine congrArg (V c main_v26) (funext fun a => Fin.ext ?_)
  obtain ⟨e0, e1, -⟩ := index_facts t
  match a with
  | ⟨0, _⟩ => show win1_0.index t (0 : Fin 2) * 1000 + 1 * p.val = t.val * 1000 + p.val; rw [e0]; omega
  | ⟨1, _⟩ => show win1_0.index t (1 : Fin 2) * 512 + 1 * k.val = k.val; rw [e1]; omega

/-- The second feature block likewise. -/
theorem read_f₀ (c : Dev nD) (t : Fin cfg1.N) (p : Fin 1000) (k : Fin 512) :
    iblk1 V c 1 t (ix2 p k) = V c main_v28 (ix2 ⟨t.val * 1000 + p.val, row_lt t p⟩ k) := by
  unfold iblk1
  rw [View.read_apply]
  show V c main_v28 _ = V c main_v28 _
  refine congrArg (V c main_v28) (funext fun a => Fin.ext ?_)
  obtain ⟨-, -, e0, e1, -⟩ := index_facts t
  match a with
  | ⟨0, _⟩ => show win1_1.index t (0 : Fin 2) * 1000 + 1 * p.val = t.val * 1000 + p.val; rw [e0]; omega
  | ⟨1, _⟩ => show win1_1.index t (1 : Fin 2) * 512 + 1 * k.val = k.val; rw [e1]; omega

/-- The first weight's block is the whole weight at every point. -/
theorem read_w₁ (c : Dev nD) (t : Fin cfg1.N) (k q : Fin 512) :
    iblk1 V c 2 t (ix2 k q) = V c main_arg5 (ix2 k q) := by
  unfold iblk1
  rw [View.read_apply]
  show V c main_arg5 _ = V c main_arg5 _
  refine congrArg (V c main_arg5) (funext fun a => Fin.ext ?_)
  obtain ⟨-, -, -, -, e0, e1, -⟩ := index_facts t
  match a with
  | ⟨0, _⟩ => show win1_2.index t (0 : Fin 2) * 512 + 1 * k.val = k.val; rw [e0]; omega
  | ⟨1, _⟩ => show win1_2.index t (1 : Fin 2) * 512 + 1 * q.val = q.val; rw [e1]; omega

/-- The second weight's likewise. -/
theorem read_w₂ (c : Dev nD) (t : Fin cfg1.N) (k q : Fin 512) :
    iblk1 V c 3 t (ix2 k q) = V c main_arg6 (ix2 k q) := by
  unfold iblk1
  rw [View.read_apply]
  show V c main_arg6 _ = V c main_arg6 _
  refine congrArg (V c main_arg6) (funext fun a => Fin.ext ?_)
  obtain ⟨-, -, -, -, -, -, e0, e1, -⟩ := index_facts t
  match a with
  | ⟨0, _⟩ => show win1_3.index t (0 : Fin 2) * 512 + 1 * k.val = k.val; rw [e0]; omega
  | ⟨1, _⟩ => show win1_3.index t (1 : Fin 2) * 512 + 1 * q.val = q.val; rw [e1]; omega

/-- The bias block is the whole one-row bias at every point. -/
theorem read_b (c : Dev nD) (t : Fin cfg1.N) (q : Fin 512) :
    iblk1 V c 4 t (ix2 (0 : Fin 1) q) = V c main_v29 (ix2 (0 : Fin 1) q) := by
  unfold iblk1
  rw [View.read_apply]
  show V c main_v29 _ = V c main_v29 _
  refine congrArg (V c main_v29) (funext fun a => Fin.ext ?_)
  obtain ⟨-, -, -, -, -, -, -, -, e0, e1, -⟩ := index_facts t
  match a with
  | ⟨0, _⟩ => show win1_4.index t (0 : Fin 2) * 1 + 1 * 0 = 0; rw [e0]
  | ⟨1, _⟩ => show win1_4.index t (1 : Fin 2) * 512 + 1 * q.val = q.val; rw [e1]; omega

/-- The combining stage of the arrays the region is entered from. -/
abbrev stage (c : Dev nD) : S20000x512.Idx → EReal :=
  combineAt (Ideal.ofBits .f32 0x3E9D1BD0#32) (Ideal.ofBits .f32 0x3F317218#32) (Ideal.ofBits .f32 0x00000000#32)
    (V c main_v26) (V c main_v28) (V c main_arg5) (V c main_arg6) (V c main_v29)

/-- What point t writes back is block t of the combining stage. -/
theorem flushed_eq (c : Dev nD) (t : Fin cfg1.N) :
    (dat1 V c).flushed 5 t = ((cfg1.win 5).blk t).view.read (Elt Ideal) (stage V c) := by
  show (cfg1.win 5).cut (grid1.coords t) ((dat1 V c).after 5 t) = _
  rw [after1_5]
  unfold out1_5
  rw [View.canon_unit_zero zeros]
  simp only [View.ld_unit_zero (S := S1000x512) zeros, View.ld_unit_zero (S := S512x512) zeros,
    View.ld_unit_zero (S := S1x512) zeros]
  funext y
  obtain ⟨p, q, rfl⟩ : ∃ (p : Fin 1000) (q : Fin 512), y = ix2 p q := ⟨y 0, y 1, eq_ix2 y⟩
  have hemb : ((cfg1.win 5).blk t).view.emb (ix2 p q) = ix2 ⟨t.val * 1000 + p.val, row_lt t p⟩ q := by
    obtain ⟨-, -, -, -, -, -, -, -, -, -, e0, e1⟩ := index_facts t
    funext a
    apply Fin.ext
    match a with
    | ⟨0, _⟩ => show win1_5.index t (0 : Fin 2) * 1000 + 1 * p.val = t.val * 1000 + p.val; rw [e0]; omega
    | ⟨1, _⟩ => show win1_5.index t (1 : Fin 2) * 512 + 1 * q.val = q.val; rw [e1]; omega
  rw [View.read_apply, hemb]
  show k1_pay1 (iblk1 V c 0 t) (iblk1 V c 1 t) (iblk1 V c 2 t) (iblk1 V c 3 t) (iblk1 V c 4 t) (ix2 p q)
      = combineAt _ _ _ _ _ _ _ _ (ix2 ⟨t.val * 1000 + p.val, row_lt t p⟩ q)
  refine (Payloads.k1_pay1_entry 0x3E9D1BD0#32 0x3F317218#32 (iblk1 V c 0 t) (iblk1 V c 1 t) (iblk1 V c 2 t)
    (iblk1 V c 3 t) (iblk1 V c 4 t) p q ⟨rfl, rfl⟩).trans ?_
  rw [combineAt_ix2]
  unfold combineRC
  simp only [read_f V c t, read_f₀ V c t, read_w₁ V c t, read_w₂ V c t, read_b V c t]

/-- An index lies in point t's block iff each coordinate lies in the block's range. -/
theorem mem_blk (t : Fin cfg1.N) (i : S20000x512.Idx) :
    i ∈ ((cfg1.win 5).blk t).view.set ↔ ∀ a : Fin 2, win1_5.index t a * S1000x512.size a ≤ (i a).val
      ∧ (i a).val < win1_5.index t a * S1000x512.size a + S1000x512.size a := by
  show i ∈ ((View.whole main_v30).slice (win1_5.rect t)).set ↔ _
  rw [View.set_slice_whole, Rect.mem_set_unit]
  exact Iff.rfl

/-- Every index lies in the block of the point its row falls in. -/
theorem cover (i : S20000x512.Idx) :
    ∃ t : Fin cfg1.N, (cfg1.win 5).flush t = true ∧ i ∈ ((cfg1.win 5).blk t).view.set := by
  have hi0 : (i 0).val < 20000 := (i 0).isLt
  have hi1 : (i 1).val < 512 := (i 1).isLt
  have hN : (i 0).val / 1000 < cfg1.N := lt_of_lt_of_eq (by omega : (i 0).val / 1000 < 20) N_1.symm
  refine ⟨⟨(i 0).val / 1000, hN⟩, flush1_5 _, ?_⟩
  rw [mem_blk]
  obtain ⟨-, -, -, -, -, -, -, -, -, -, e0, e1⟩ := index_facts ⟨(i 0).val / 1000, hN⟩
  intro a
  match a with
  | ⟨0, _⟩ =>
    show win1_5.index ⟨(i 0).val / 1000, hN⟩ (0 : Fin 2) * 1000 ≤ (i 0).val
      ∧ (i 0).val < win1_5.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win1_5.index ⟨(i 0).val / 1000, hN⟩ (1 : Fin 2) * 512 ≤ (i 1).val
      ∧ (i 1).val < win1_5.index ⟨(i 0).val / 1000, hN⟩ (1 : Fin 2) * 512 + 512
    rw [e1]; omega

/-- The output array after the region: the combining stage of the arrays it was entered from. -/
theorem final (c : Dev nD) : (dat1 V c).arrAt 5 cfg1.N = stage V c :=
  (dat1 V c).arrAt_eq_of_cover 5 (stage V c) (fun t _ => flushed_eq V c t) cover

end Cert.KernelIdeal.Region1

end
-- ==== Proof.Region2.lean ====
/-
  What the second combining region leaves in its output array, for any contents the region is entered from.

  The grid has 20 points; point t works on rows 1000·t … 1000·t + 999 of the two feature arrays and of the output,
  and on the whole of the two weights and of the one-row bias.  Its body stores the combining stage's value at each
  entry of its block, computed from those blocks; a block's entry (p, q) is the array's entry (1000·t + p, q), so
  what point t writes back is block t of the combining stage of the whole arrays.  The twenty blocks tile the
  20000 rows (row r lies in block r / 1000), hence the array ends holding that stage everywhere.
-/
import proofs.«175265_j53145925321199_1_alg».proof.Proof.Gen.KernelIdeal.Frame
import proofs.«175265_j53145925321199_1_alg».proof.Proof.Payloads
import proofs.«175265_j53145925321199_1_alg».proof.Proof.Formulas

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem Cert.GraphNet
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The block index maps over the grid: the row blocks move with the point, the weights and the bias stay. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 20 := lt_of_lt_of_eq t.isLt N_2

theorem row_lt (t : Fin cfg2.N) (p : Fin 1000) : t.val * 1000 + p.val < 20000 := by
  have := point_lt t; have := p.isLt; omega

/-- The first feature block at point t is rows 1000·t … of its array. -/
theorem read_f (c : Dev nD) (t : Fin cfg2.N) (p : Fin 1000) (k : Fin 512) :
    iblk2 V c 0 t (ix2 p k) = V c main_v46 (ix2 ⟨t.val * 1000 + p.val, row_lt t p⟩ k) := by
  unfold iblk2
  rw [View.read_apply]
  show V c main_v46 _ = V c main_v46 _
  refine congrArg (V c main_v46) (funext fun a => Fin.ext ?_)
  obtain ⟨e0, e1, -⟩ := index_facts t
  match a with
  | ⟨0, _⟩ => show win2_0.index t (0 : Fin 2) * 1000 + 1 * p.val = t.val * 1000 + p.val; rw [e0]; omega
  | ⟨1, _⟩ => show win2_0.index t (1 : Fin 2) * 512 + 1 * k.val = k.val; rw [e1]; omega

/-- The second feature block likewise. -/
theorem read_f₀ (c : Dev nD) (t : Fin cfg2.N) (p : Fin 1000) (k : Fin 512) :
    iblk2 V c 1 t (ix2 p k) = V c main_v48 (ix2 ⟨t.val * 1000 + p.val, row_lt t p⟩ k) := by
  unfold iblk2
  rw [View.read_apply]
  show V c main_v48 _ = V c main_v48 _
  refine congrArg (V c main_v48) (funext fun a => Fin.ext ?_)
  obtain ⟨-, -, e0, e1, -⟩ := index_facts t
  match a with
  | ⟨0, _⟩ => show win2_1.index t (0 : Fin 2) * 1000 + 1 * p.val = t.val * 1000 + p.val; rw [e0]; omega
  | ⟨1, _⟩ => show win2_1.index t (1 : Fin 2) * 512 + 1 * k.val = k.val; rw [e1]; omega

/-- The first weight's block is the whole weight at every point. -/
theorem read_w₁ (c : Dev nD) (t : Fin cfg2.N) (k q : Fin 512) :
    iblk2 V c 2 t (ix2 k q) = V c main_arg8 (ix2 k q) := by
  unfold iblk2
  rw [View.read_apply]
  show V c main_arg8 _ = V c main_arg8 _
  refine congrArg (V c main_arg8) (funext fun a => Fin.ext ?_)
  obtain ⟨-, -, -, -, e0, e1, -⟩ := index_facts t
  match a with
  | ⟨0, _⟩ => show win2_2.index t (0 : Fin 2) * 512 + 1 * k.val = k.val; rw [e0]; omega
  | ⟨1, _⟩ => show win2_2.index t (1 : Fin 2) * 512 + 1 * q.val = q.val; rw [e1]; omega

/-- The second weight's likewise. -/
theorem read_w₂ (c : Dev nD) (t : Fin cfg2.N) (k q : Fin 512) :
    iblk2 V c 3 t (ix2 k q) = V c main_arg9 (ix2 k q) := by
  unfold iblk2
  rw [View.read_apply]
  show V c main_arg9 _ = V c main_arg9 _
  refine congrArg (V c main_arg9) (funext fun a => Fin.ext ?_)
  obtain ⟨-, -, -, -, -, -, e0, e1, -⟩ := index_facts t
  match a with
  | ⟨0, _⟩ => show win2_3.index t (0 : Fin 2) * 512 + 1 * k.val = k.val; rw [e0]; omega
  | ⟨1, _⟩ => show win2_3.index t (1 : Fin 2) * 512 + 1 * q.val = q.val; rw [e1]; omega

/-- The bias block is the whole one-row bias at every point. -/
theorem read_b (c : Dev nD) (t : Fin cfg2.N) (q : Fin 512) :
    iblk2 V c 4 t (ix2 (0 : Fin 1) q) = V c main_v49 (ix2 (0 : Fin 1) q) := by
  unfold iblk2
  rw [View.read_apply]
  show V c main_v49 _ = V c main_v49 _
  refine congrArg (V c main_v49) (funext fun a => Fin.ext ?_)
  obtain ⟨-, -, -, -, -, -, -, -, e0, e1, -⟩ := index_facts t
  match a with
  | ⟨0, _⟩ => show win2_4.index t (0 : Fin 2) * 1 + 1 * 0 = 0; rw [e0]
  | ⟨1, _⟩ => show win2_4.index t (1 : Fin 2) * 512 + 1 * q.val = q.val; rw [e1]; omega

/-- The combining stage of the arrays the region is entered from. -/
abbrev stage (c : Dev nD) : S20000x512.Idx → EReal :=
  combineAt (Ideal.ofBits .f32 0x3F183370#32) (Ideal.ofBits .f32 0x3ECF991F#32) (Ideal.ofBits .f32 0x00000000#32)
    (V c main_v46) (V c main_v48) (V c main_arg8) (V c main_arg9) (V c main_v49)

/-- What point t writes back is block t of the combining stage. -/
theorem flushed_eq (c : Dev nD) (t : Fin cfg2.N) :
    (dat2 V c).flushed 5 t = ((cfg2.win 5).blk t).view.read (Elt Ideal) (stage V c) := by
  show (cfg2.win 5).cut (grid2.coords t) ((dat2 V c).after 5 t) = _
  rw [after2_5]
  unfold out2_5
  rw [View.canon_unit_zero zeros]
  simp only [View.ld_unit_zero (S := S1000x512) zeros, View.ld_unit_zero (S := S512x512) zeros,
    View.ld_unit_zero (S := S1x512) zeros]
  funext y
  obtain ⟨p, q, rfl⟩ : ∃ (p : Fin 1000) (q : Fin 512), y = ix2 p q := ⟨y 0, y 1, eq_ix2 y⟩
  have hemb : ((cfg2.win 5).blk t).view.emb (ix2 p q) = ix2 ⟨t.val * 1000 + p.val, row_lt t p⟩ q := by
    obtain ⟨-, -, -, -, -, -, -, -, -, -, e0, e1⟩ := index_facts t
    funext a
    apply Fin.ext
    match a with
    | ⟨0, _⟩ => show win2_5.index t (0 : Fin 2) * 1000 + 1 * p.val = t.val * 1000 + p.val; rw [e0]; omega
    | ⟨1, _⟩ => show win2_5.index t (1 : Fin 2) * 512 + 1 * q.val = q.val; rw [e1]; omega
  rw [View.read_apply, hemb]
  show k2_pay1 (iblk2 V c 0 t) (iblk2 V c 1 t) (iblk2 V c 2 t) (iblk2 V c 3 t) (iblk2 V c 4 t) (ix2 p q)
      = combineAt _ _ _ _ _ _ _ _ (ix2 ⟨t.val * 1000 + p.val, row_lt t p⟩ q)
  refine (Payloads.k2_pay1_entry 0x3F183370#32 0x3ECF991F#32 (iblk2 V c 0 t) (iblk2 V c 1 t) (iblk2 V c 2 t)
    (iblk2 V c 3 t) (iblk2 V c 4 t) p q ⟨rfl, rfl⟩).trans ?_
  rw [combineAt_ix2]
  unfold combineRC
  simp only [read_f V c t, read_f₀ V c t, read_w₁ V c t, read_w₂ V c t, read_b V c t]

/-- An index lies in point t's block iff each coordinate lies in the block's range. -/
theorem mem_blk (t : Fin cfg2.N) (i : S20000x512.Idx) :
    i ∈ ((cfg2.win 5).blk t).view.set ↔ ∀ a : Fin 2, win2_5.index t a * S1000x512.size a ≤ (i a).val
      ∧ (i a).val < win2_5.index t a * S1000x512.size a + S1000x512.size a := by
  show i ∈ ((View.whole main_v50).slice (win2_5.rect t)).set ↔ _
  rw [View.set_slice_whole, Rect.mem_set_unit]
  exact Iff.rfl

/-- Every index lies in the block of the point its row falls in. -/
theorem cover (i : S20000x512.Idx) :
    ∃ t : Fin cfg2.N, (cfg2.win 5).flush t = true ∧ i ∈ ((cfg2.win 5).blk t).view.set := by
  have hi0 : (i 0).val < 20000 := (i 0).isLt
  have hi1 : (i 1).val < 512 := (i 1).isLt
  have hN : (i 0).val / 1000 < cfg2.N := lt_of_lt_of_eq (by omega : (i 0).val / 1000 < 20) N_2.symm
  refine ⟨⟨(i 0).val / 1000, hN⟩, flush2_5 _, ?_⟩
  rw [mem_blk]
  obtain ⟨-, -, -, -, -, -, -, -, -, -, e0, e1⟩ := index_facts ⟨(i 0).val / 1000, hN⟩
  intro a
  match a with
  | ⟨0, _⟩ =>
    show win2_5.index ⟨(i 0).val / 1000, hN⟩ (0 : Fin 2) * 1000 ≤ (i 0).val
      ∧ (i 0).val < win2_5.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win2_5.index ⟨(i 0).val / 1000, hN⟩ (1 : Fin 2) * 512 ≤ (i 1).val
      ∧ (i 1).val < win2_5.index ⟨(i 0).val / 1000, hN⟩ (1 : Fin 2) * 512 + 512
    rw [e1]; omega

/-- The output array after the region: the combining stage of the arrays it was entered from. -/
theorem final (c : Dev nD) : (dat2 V c).arrAt 5 cfg2.N = stage V c :=
  (dat2 V c).arrAt_eq_of_cover 5 (stage V c) (fun t _ => flushed_eq V c t) cover

end Cert.KernelIdeal.Region2

end
-- ==== Proof.Stretches.lean ====
/-
  The host operations between the three regions, read over arbitrary contents.

  From any contents X of the buffers:
    * the stretch before the linear region leaves the transposed weight and the bias as a one-row matrix
      (whose entry (0, q) is the vector's entry q), and touches no argument array;
    * the stretch before the first combining region leaves the aggregate of the projection (scaled by the
      degree column, each edge's source row summed into its destination, scaled again and by 0.9), 0.1 times the
      projection, the layer's bias as a one-row matrix, and the degree column itself; it touches neither the
      projection nor an argument array;
    * the stretch before the second combining region leaves the same three from the first layer's output, the
      projection and the degree column.
  Each is one pass over the operations' results; the stages are the network's, spelled with the same operations.
-/
import proofs.«175265_j53145925321199_1_alg».proof.Proof.Gen.KernelIdeal.Launch
import proofs.«175265_j53145925321199_1_alg».proof.Proof.GraphNet
import Idealize.ShloMosaic.Lib.StableHlo.Run
import Idealize.ShloMosaic.Lib.Pipeline.Value
import Idealize.ShloMosaic.Lib.ValueIdx

set_option maxRecDepth 16384

noncomputable section

namespace Cert.KernelIdeal.Stretches

open Cert.KernelIdeal Cert.KernelIdeal.Gen Idealize.ShloMosaic Idealize.ShloMosaic.TcCoe Idealize.SL.Sem
open Idealize.ShloMosaic.StableHlo Idealize.ShloMosaic.ValueIdx Cert.GraphNet

variable {F : FTy → Type} [FloatOps F]

/-- The contents after the stretch before the linear region. -/
def before0 (X : Valuation τ sig (Elt F)) : Valuation τ sig (Elt F) := after (hostOps0 (F := F)) X

/-- The contents after the three stretches before the first combining region. -/
def before1 (X : Valuation τ sig (Elt F)) : Valuation τ sig (Elt F) :=
  after (hostOps1_2 (F := F)) (after (hostOps1_1 (F := F)) (after (hostOps1 (F := F)) X))

/-- The contents after the stretch before the second combining region. -/
def before2 (X : Valuation τ sig (Elt F)) : Valuation τ sig (Elt F) := after (hostOps2 (F := F)) X

/-- A 512-vector recast as a one-row matrix keeps its entries. -/
theorem oneRow_entry (b : S512.Idx → Elt F .f32) (h : S512.ShapeCasts S1x512) (q : Fin 512) :
    shapeCast S1x512 b h (ix2 (0 : Fin 1) q) = b (ix1 q) := by
  refine shapeCast_apply b h (ix2 (0 : Fin 1) q) (ix1 q) ?_
  rw [Shape.rowMajor_val_one, Shape.rowMajor_val_two]
  show q.val = 0 * _ + q.val
  omega

/-! ## Before the linear region -/

theorem before0_arg0 (X : Valuation τ sig (Elt F)) :
    before0 (F := F) X (Proc.devRef .tc main_arg0) = X (Proc.devRef .tc main_arg0) := by
  unfold before0
  dsimp only [hostOps0]
  after_results_simp

theorem before0_arg1 (X : Valuation τ sig (Elt F)) :
    before0 (F := F) X (Proc.devRef .tc main_arg1) = X (Proc.devRef .tc main_arg1) := by
  unfold before0
  dsimp only [hostOps0]
  after_results_simp

theorem before0_arg2 (X : Valuation τ sig (Elt F)) :
    before0 (F := F) X (Proc.devRef .tc main_arg2) = X (Proc.devRef .tc main_arg2) := by
  unfold before0
  dsimp only [hostOps0]
  after_results_simp

theorem before0_arg5 (X : Valuation τ sig (Elt F)) :
    before0 (F := F) X (Proc.devRef .tc main_arg5) = X (Proc.devRef .tc main_arg5) := by
  unfold before0
  dsimp only [hostOps0]
  after_results_simp

theorem before0_arg6 (X : Valuation τ sig (Elt F)) :
    before0 (F := F) X (Proc.devRef .tc main_arg6) = X (Proc.devRef .tc main_arg6) := by
  unfold before0
  dsimp only [hostOps0]
  after_results_simp

theorem before0_arg7 (X : Valuation τ sig (Elt F)) :
    before0 (F := F) X (Proc.devRef .tc main_arg7) = X (Proc.devRef .tc main_arg7) := by
  unfold before0
  dsimp only [hostOps0]
  after_results_simp

theorem before0_arg8 (X : Valuation τ sig (Elt F)) :
    before0 (F := F) X (Proc.devRef .tc main_arg8) = X (Proc.devRef .tc main_arg8) := by
  unfold before0
  dsimp only [hostOps0]
  after_results_simp

theorem before0_arg9 (X : Valuation τ sig (Elt F)) :
    before0 (F := F) X (Proc.devRef .tc main_arg9) = X (Proc.devRef .tc main_arg9) := by
  unfold before0
  dsimp only [hostOps0]
  after_results_simp

theorem before0_arg10 (X : Valuation τ sig (Elt F)) :
    before0 (F := F) X (Proc.devRef .tc main_arg10) = X (Proc.devRef .tc main_arg10) := by
  unfold before0
  dsimp only [hostOps0]
  after_results_simp

theorem before0_v0 (X : Valuation τ sig (Elt F)) :
    before0 (F := F) X (Proc.devRef .tc main_v0)
      = transpose S512x512 [1, 0] (X (Proc.devRef .tc main_arg3)) transposes_S512x512_S512x512_1_0 := by
  unfold before0
  dsimp only [hostOps0]
  after_results_simp

theorem before0_v1_entry (X : Valuation τ sig (Elt F)) (q : Fin 512) :
    before0 (F := F) X (Proc.devRef .tc main_v1) (ix2 (0 : Fin 1) q) = X (Proc.devRef .tc main_arg4) (ix1 q) := by
  unfold before0
  dsimp only [hostOps0]
  after_results_simp
  exact oneRow_entry (X (Proc.devRef .tc main_arg4)) shapeCasts_S512_S1x512 q

/-! ## Before the first combining region -/

theorem before1_arg1 (X : Valuation τ sig (Elt F)) :
    before1 (F := F) X (Proc.devRef .tc main_arg1) = X (Proc.devRef .tc main_arg1) := by
  unfold before1
  dsimp only [hostOps1, hostOps1_1, hostOps1_2]
  after_results_simp

theorem before1_arg2 (X : Valuation τ sig (Elt F)) :
    before1 (F := F) X (Proc.devRef .tc main_arg2) = X (Proc.devRef .tc main_arg2) := by
  unfold before1
  dsimp only [hostOps1, hostOps1_1, hostOps1_2]
  after_results_simp

theorem before1_arg5 (X : Valuation τ sig (Elt F)) :
    before1 (F := F) X (Proc.devRef .tc main_arg5) = X (Proc.devRef .tc main_arg5) := by
  unfold before1
  dsimp only [hostOps1, hostOps1_1, hostOps1_2]
  after_results_simp

theorem before1_arg6 (X : Valuation τ sig (Elt F)) :
    before1 (F := F) X (Proc.devRef .tc main_arg6) = X (Proc.devRef .tc main_arg6) := by
  unfold before1
  dsimp only [hostOps1, hostOps1_1, hostOps1_2]
  after_results_simp

theorem before1_arg8 (X : Valuation τ sig (Elt F)) :
    before1 (F := F) X (Proc.devRef .tc main_arg8) = X (Proc.devRef .tc main_arg8) := by
  unfold before1
  dsimp only [hostOps1, hostOps1_1, hostOps1_2]
  after_results_simp

theorem before1_arg9 (X : Valuation τ sig (Elt F)) :
    before1 (F := F) X (Proc.devRef .tc main_arg9) = X (Proc.devRef .tc main_arg9) := by
  unfold before1
  dsimp only [hostOps1, hostOps1_1, hostOps1_2]
  after_results_simp

theorem before1_arg10 (X : Valuation τ sig (Elt F)) :
    before1 (F := F) X (Proc.devRef .tc main_arg10) = X (Proc.devRef .tc main_arg10) := by
  unfold before1
  dsimp only [hostOps1, hostOps1_1, hostOps1_2]
  after_results_simp

theorem before1_v2 (X : Valuation τ sig (Elt F)) :
    before1 (F := F) X (Proc.devRef .tc main_v2) = X (Proc.devRef .tc main_v2) := by
  unfold before1
  dsimp only [hostOps1, hostOps1_1, hostOps1_2]
  after_results_simp

theorem before1_v10 (X : Valuation τ sig (Elt F)) :
    before1 (F := F) X (Proc.devRef .tc main_v10) = degNorm (F := F) (X (Proc.devRef .tc main_arg2)) := by
  unfold before1
  dsimp only [hostOps1, hostOps1_1, hostOps1_2]
  after_results_simp
  unfold degNorm
  rfl

theorem before1_v28 (X : Valuation τ sig (Elt F)) :
    before1 (F := F) X (Proc.devRef .tc main_v28) = initial (F := F) (X (Proc.devRef .tc main_v2)) := by
  unfold before1
  dsimp only [hostOps1, hostOps1_1, hostOps1_2]
  after_results_simp
  unfold initial splat
  rfl

theorem before1_v26 (X : Valuation τ sig (Elt F)) :
    before1 (F := F) X (Proc.devRef .tc main_v26)
      = aggregate (F := F) (X (Proc.devRef .tc main_v2)) (degNorm (F := F) (X (Proc.devRef .tc main_arg2)))
          (X (Proc.devRef .tc main_arg1)) (X (Proc.devRef .tc main_arg2)) := by
  unfold before1
  dsimp only [hostOps1, hostOps1_1, hostOps1_2]
  after_results_simp
  unfold aggregate degNorm colSplat splat
  rfl

theorem before1_v29_entry (X : Valuation τ sig (Elt F)) (q : Fin 512) :
    before1 (F := F) X (Proc.devRef .tc main_v29) (ix2 (0 : Fin 1) q) = X (Proc.devRef .tc main_arg7) (ix1 q) := by
  unfold before1
  dsimp only [hostOps1, hostOps1_1, hostOps1_2]
  after_results_simp
  exact oneRow_entry (X (Proc.devRef .tc main_arg7)) shapeCasts_S512_S1x512 q

/-! ## Before the second combining region -/

theorem before2_arg8 (X : Valuation τ sig (Elt F)) :
    before2 (F := F) X (Proc.devRef .tc main_arg8) = X (Proc.devRef .tc main_arg8) := by
  unfold before2
  dsimp only [hostOps2]
  after_results_simp

theorem before2_arg9 (X : Valuation τ sig (Elt F)) :
    before2 (F := F) X (Proc.devRef .tc main_arg9) = X (Proc.devRef .tc main_arg9) := by
  unfold before2
  dsimp only [hostOps2]
  after_results_simp

theorem before2_v48 (X : Valuation τ sig (Elt F)) :
    before2 (F := F) X (Proc.devRef .tc main_v48) = initial (F := F) (X (Proc.devRef .tc main_v2)) := by
  unfold before2
  dsimp only [hostOps2]
  after_results_simp
  unfold initial splat
  rfl

theorem before2_v46 (X : Valuation τ sig (Elt F)) :
    before2 (F := F) X (Proc.devRef .tc main_v46)
      = aggregate (F := F) (X (Proc.devRef .tc main_v30)) (X (Proc.devRef .tc main_v10))
          (X (Proc.devRef .tc main_arg1)) (X (Proc.devRef .tc main_arg2)) := by
  unfold before2
  dsimp only [hostOps2]
  after_results_simp
  unfold aggregate colSplat splat
  rfl

theorem before2_v49_entry (X : Valuation τ sig (Elt F)) (q : Fin 512) :
    before2 (F := F) X (Proc.devRef .tc main_v49) (ix2 (0 : Fin 1) q) = X (Proc.devRef .tc main_arg10) (ix1 q) := by
  unfold before2
  dsimp only [hostOps2]
  after_results_simp
  exact oneRow_entry (X (Proc.devRef .tc main_arg10)) shapeCasts_S512_S1x512 q

end Cert.KernelIdeal.Stretches

end
-- ==== Proof.RefEntries.lean ====
/-
  The dense stages of the network, entry by entry, over the extended reals.

  The host's matrix product of node features with a 512×512 weight is, at node r and feature q, the sum over k
  of x(r,k)·w(k,q); a word splat is the word's value everywhere; a 512-vector splat along the nodes is its
  entry q.  So the affine stage and the combining stage are the entry formulas of the two dense stages, once
  the bias is read as a one-row matrix whose entry (0, q) is the vector's entry q.
-/
import proofs.«175265_j53145925321199_1_alg».proof.Proof.GraphNet
import proofs.«175265_j53145925321199_1_alg».proof.Proof.Formulas
import proofs.«175265_j53145925321199_1_alg».proof.Proof.LibPlainDot
import Idealize.ShloMosaic.Lib.Pipeline.Value

noncomputable section

open scoped BigOperators

namespace Cert.GraphNet

open Cert.ReferenceIdeal Cert.ReferenceIdeal.Gen Idealize.ShloMosaic Idealize.ShloMosaic.ValueIdx

/-- The host's product of node features with a weight, at (r, q). -/
theorem times_entry (x : FVec Ideal S20000x512 .f32) (w : FVec Ideal S512x512 .f32) (r : Fin 20000) (q : Fin 512) :
    times (F := Ideal) x w (ix2 r q) = ∑ k : Fin 512, x (ix2 r k) * w (ix2 k q) := by
  unfold times
  exact PlainDot.dotGeneral_apply (M := 20000) (K := 512) (N := 512) none .single x w r q

/-- A word splat over the node features is the word's value at every index. -/
theorem splat_entry (w : BitVec 32) (i : S20000x512.Idx) : splat (F := Ideal) w i = Ideal.ofBits .f32 w := by
  unfold splat
  exact (broadcastInDim_apply _ bcast_S_S20000x512 _ i ix0 (fun a => a.elim0)).trans rfl

/-- A 512-vector splat along the nodes, at (r, q): its entry q. -/
theorem rowSplat_entry (b : FVec Ideal S512 .f32) (r : Fin 20000) (q : Fin 512) :
    rowSplat (F := Ideal) b (ix2 r q) = b (ix1 q) := by
  unfold rowSplat
  refine (broadcastInDim_apply _ bcast_S1x512_S20000x512_0_1 _ (ix2 r q) (ix2 (0 : Fin 1) q) ?_).trans ?_
  · intro a
    match a with
    | ⟨0, _⟩ => rfl
    | ⟨1, _⟩ => rfl
  · exact broadcastInDim_apply _ bcast_S512_S1x512_1 b (ix2 (0 : Fin 1) q) (ix1 q) (fun a => match a with | ⟨0, _⟩ => rfl)

/-- The affine stage is the entry formula, for a one-row bias agreeing with the vector. -/
theorem affine_eq (x : FVec Ideal S20000x512 .f32) (w : FVec Ideal S512x512 .f32) (b : FVec Ideal S512 .f32)
    (b' : FVec Ideal S1x512 .f32) (hb : ∀ q : Fin 512, b' (ix2 (0 : Fin 1) q) = b (ix1 q)) :
    affineAt x w b' = affine (F := Ideal) x w b := by
  funext i
  obtain ⟨r, q, rfl⟩ : ∃ (r : Fin 20000) (q : Fin 512), i = ix2 r q := ⟨i 0, i 1, eq_ix2 i⟩
  rw [affineAt_ix2]
  unfold affine affineRC
  show _ = times (F := Ideal) x w (ix2 r q) + rowSplat (F := Ideal) b (ix2 r q)
  rw [times_entry, rowSplat_entry, hb]

/-- The combining stage is the entry formula at the words' values, for a one-row bias agreeing with the vector. -/
theorem combine_eq (c₁ c₂ : BitVec 32) (f f₀ : FVec Ideal S20000x512 .f32) (w₁ w₂ : FVec Ideal S512x512 .f32)
    (b : FVec Ideal S512 .f32) (b' : FVec Ideal S1x512 .f32) (hb : ∀ q : Fin 512, b' (ix2 (0 : Fin 1) q) = b (ix1 q)) :
    combineAt (Ideal.ofBits .f32 c₁) (Ideal.ofBits .f32 c₂) (Ideal.ofBits .f32 0x00000000#32) f f₀ w₁ w₂ b'
      = combine (F := Ideal) c₁ c₂ f f₀ w₁ w₂ b := by
  funext i
  obtain ⟨r, q, rfl⟩ : ∃ (r : Fin 20000) (q : Fin 512), i = ix2 r q := ⟨i 0, i 1, eq_ix2 i⟩
  rw [combineAt_ix2]
  unfold combine combineRC
  show _ = max (splat (F := Ideal) c₁ (ix2 r q) * f (ix2 r q) + splat (F := Ideal) c₂ (ix2 r q) * times (F := Ideal) f w₁ (ix2 r q)
      + splat (F := Ideal) c₁ (ix2 r q) * f₀ (ix2 r q) + splat (F := Ideal) c₂ (ix2 r q) * times (F := Ideal) f₀ w₂ (ix2 r q)
      + rowSplat (F := Ideal) b (ix2 r q))
      (splat (F := Ideal) 0x00000000#32 (ix2 r q))
  rw [times_entry, times_entry, rowSplat_entry, hb]
  simp only [splat_entry]

end Cert.GraphNet

end
-- ==== Proof.KernelResult.lean ====
/-
  The idealized kernel's result is the network of its argument arrays.

  Walking the run's boundaries back from the end: the result buffer is the second combining region's output, the
  combining stage of the arrays that region is entered from; those are the aggregate of the first layer's output,
  0.1 times the projection, and the second layer's weights and bias, by the host operations before it; the first
  layer's output is the first combining region's stage of the aggregate of the projection, 0.1 times the
  projection, and the first layer's weights and bias; and the projection is the linear region's affine stage of
  the features, the transposed weight and the bias.  The degree column and every argument array pass through the
  regions and the host operations untouched.  Each dense stage is the network's own (the matrix products and the
  bias read entry by entry), so the composition is the network of the eleven arguments.
-/
import proofs.«175265_j53145925321199_1_alg».proof.Proof.Gen.KernelIdeal.Frame
import proofs.«175265_j53145925321199_1_alg».proof.Proof.Region0
import proofs.«175265_j53145925321199_1_alg».proof.Proof.Region1
import proofs.«175265_j53145925321199_1_alg».proof.Proof.Region2
import proofs.«175265_j53145925321199_1_alg».proof.Proof.Stretches
import proofs.«175265_j53145925321199_1_alg».proof.Proof.RefEntries

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Cert.GraphNet

variable (m : (ℓ : Loc nD τ sig) → Buf (Elt Ideal) ℓ) (ρ : Dev nD → PrngReg) (c : Dev nD)

/-- The projection of the launch arguments. -/
abbrev feat : S20000x512.Idx → EReal := project (F := Ideal) (m ((c : Thread nD τ).loc main_arg0)) (m ((c : Thread nD τ).loc main_arg3)) (m ((c : Thread nD τ).loc main_arg4))

/-- The degree column of the launch arguments. -/
abbrev col : S20000x1.Idx → EReal := degNorm (F := Ideal) (m ((c : Thread nD τ).loc main_arg2))

/-- The first layer of the launch arguments. -/
abbrev first : S20000x512.Idx → EReal :=
  layer (F := Ideal) 0x3E9D1BD0#32 0x3F317218#32 (feat m c) (feat m c) (col m c) (m ((c : Thread nD τ).loc main_arg1)) (m ((c : Thread nD τ).loc main_arg2)) (m ((c : Thread nD τ).loc main_arg5)) (m ((c : Thread nD τ).loc main_arg6)) (m ((c : Thread nD τ).loc main_arg7))

/-! ## After the linear region -/

theorem W2_arg1 : W2 m ρ c (Proc.devRef .tc main_arg1) = m ((c : Thread nD τ).loc main_arg1) :=
  (W2_of_ne m ρ c main_arg1 (by decide)).trans (Stretches.before0_arg1 (W0 m ρ c))
theorem W2_arg2 : W2 m ρ c (Proc.devRef .tc main_arg2) = m ((c : Thread nD τ).loc main_arg2) :=
  (W2_of_ne m ρ c main_arg2 (by decide)).trans (Stretches.before0_arg2 (W0 m ρ c))
theorem W2_arg5 : W2 m ρ c (Proc.devRef .tc main_arg5) = m ((c : Thread nD τ).loc main_arg5) :=
  (W2_of_ne m ρ c main_arg5 (by decide)).trans (Stretches.before0_arg5 (W0 m ρ c))
theorem W2_arg6 : W2 m ρ c (Proc.devRef .tc main_arg6) = m ((c : Thread nD τ).loc main_arg6) :=
  (W2_of_ne m ρ c main_arg6 (by decide)).trans (Stretches.before0_arg6 (W0 m ρ c))
theorem W2_arg7 : W2 m ρ c (Proc.devRef .tc main_arg7) = m ((c : Thread nD τ).loc main_arg7) :=
  (W2_of_ne m ρ c main_arg7 (by decide)).trans (Stretches.before0_arg7 (W0 m ρ c))
theorem W2_arg8 : W2 m ρ c (Proc.devRef .tc main_arg8) = m ((c : Thread nD τ).loc main_arg8) :=
  (W2_of_ne m ρ c main_arg8 (by decide)).trans (Stretches.before0_arg8 (W0 m ρ c))
theorem W2_arg9 : W2 m ρ c (Proc.devRef .tc main_arg9) = m ((c : Thread nD τ).loc main_arg9) :=
  (W2_of_ne m ρ c main_arg9 (by decide)).trans (Stretches.before0_arg9 (W0 m ρ c))
theorem W2_arg10 : W2 m ρ c (Proc.devRef .tc main_arg10) = m ((c : Thread nD τ).loc main_arg10) :=
  (W2_of_ne m ρ c main_arg10 (by decide)).trans (Stretches.before0_arg10 (W0 m ρ c))

/-- The linear region's output is the projection. -/
theorem W2_v2 : W2 m ρ c (Proc.devRef .tc main_v2) = feat m c :=
  calc W2 m ρ c (Proc.devRef .tc main_v2)
    _ = (dat0 (V1 m ρ) c).arrAt 3 cfg0.N := W2_arr m ρ c 3
    _ = affineAt (V1 m ρ c main_arg0) (V1 m ρ c main_v0) (V1 m ρ c main_v1) := Region0.final (V1 m ρ) c
    _ = affine (F := Ideal) (V1 m ρ c main_arg0) (V1 m ρ c main_v0) (m ((c : Thread nD τ).loc main_arg4)) :=
        affine_eq _ _ _ _ (fun q => Stretches.before0_v1_entry (W0 m ρ c) q)
    _ = feat m c := by
        show _ = affine (F := Ideal) (m ((c : Thread nD τ).loc main_arg0)) (transpose S512x512 [1, 0] (m ((c : Thread nD τ).loc main_arg3)) _) (m ((c : Thread nD τ).loc main_arg4))
        rw [show V1 m ρ c main_arg0 = (m ((c : Thread nD τ).loc main_arg0)) from Stretches.before0_arg0 (W0 m ρ c),
          show V1 m ρ c main_v0 = _ from Stretches.before0_v0 (W0 m ρ c)]

/-! ## After the first combining region -/

theorem W6_arg1 : W6 m ρ c (Proc.devRef .tc main_arg1) = m ((c : Thread nD τ).loc main_arg1) :=
  (W6_of_ne m ρ c main_arg1 (by decide)).trans ((Stretches.before1_arg1 (W2 m ρ c)).trans (W2_arg1 m ρ c))
theorem W6_arg2 : W6 m ρ c (Proc.devRef .tc main_arg2) = m ((c : Thread nD τ).loc main_arg2) :=
  (W6_of_ne m ρ c main_arg2 (by decide)).trans ((Stretches.before1_arg2 (W2 m ρ c)).trans (W2_arg2 m ρ c))
theorem W6_arg8 : W6 m ρ c (Proc.devRef .tc main_arg8) = m ((c : Thread nD τ).loc main_arg8) :=
  (W6_of_ne m ρ c main_arg8 (by decide)).trans ((Stretches.before1_arg8 (W2 m ρ c)).trans (W2_arg8 m ρ c))
theorem W6_arg9 : W6 m ρ c (Proc.devRef .tc main_arg9) = m ((c : Thread nD τ).loc main_arg9) :=
  (W6_of_ne m ρ c main_arg9 (by decide)).trans ((Stretches.before1_arg9 (W2 m ρ c)).trans (W2_arg9 m ρ c))
theorem W6_arg10 : W6 m ρ c (Proc.devRef .tc main_arg10) = m ((c : Thread nD τ).loc main_arg10) :=
  (W6_of_ne m ρ c main_arg10 (by decide)).trans ((Stretches.before1_arg10 (W2 m ρ c)).trans (W2_arg10 m ρ c))

theorem W6_v2 : W6 m ρ c (Proc.devRef .tc main_v2) = feat m c :=
  (W6_of_ne m ρ c main_v2 (by decide)).trans ((Stretches.before1_v2 (W2 m ρ c)).trans (W2_v2 m ρ c))

theorem W6_v10 : W6 m ρ c (Proc.devRef .tc main_v10) = col m c :=
  (W6_of_ne m ρ c main_v10 (by decide)).trans
    ((Stretches.before1_v10 (W2 m ρ c)).trans (congrArg (degNorm (F := Ideal)) (W2_arg2 m ρ c)))

/-- The first combining region's output is the first layer. -/
theorem W6_v30 : W6 m ρ c (Proc.devRef .tc main_v30) = first m c :=
  calc W6 m ρ c (Proc.devRef .tc main_v30)
    _ = (dat1 (V5 m ρ) c).arrAt 5 cfg1.N := W6_arr m ρ c 5
    _ = Region1.stage (V5 m ρ) c := Region1.final (V5 m ρ) c
    _ = combine (F := Ideal) 0x3E9D1BD0#32 0x3F317218#32 (V5 m ρ c main_v26) (V5 m ρ c main_v28) (V5 m ρ c main_arg5)
          (V5 m ρ c main_arg6) (W2 m ρ c (Proc.devRef .tc main_arg7)) :=
        combine_eq _ _ _ _ _ _ _ _ (fun q => Stretches.before1_v29_entry (W2 m ρ c) q)
    _ = first m c := by
        show _ = combine (F := Ideal) 0x3E9D1BD0#32 0x3F317218#32
          (aggregate (F := Ideal) (feat m c) (col m c) (m ((c : Thread nD τ).loc main_arg1)) (m ((c : Thread nD τ).loc main_arg2))) (initial (F := Ideal) (feat m c)) (m ((c : Thread nD τ).loc main_arg5)) (m ((c : Thread nD τ).loc main_arg6)) (m ((c : Thread nD τ).loc main_arg7))
        rw [show V5 m ρ c main_v26 = _ from Stretches.before1_v26 (W2 m ρ c),
          show V5 m ρ c main_v28 = _ from Stretches.before1_v28 (W2 m ρ c),
          show V5 m ρ c main_arg5 = _ from Stretches.before1_arg5 (W2 m ρ c),
          show V5 m ρ c main_arg6 = _ from Stretches.before1_arg6 (W2 m ρ c),
          W2_v2, W2_arg1, W2_arg2, W2_arg5, W2_arg6, W2_arg7]

/-! ## After the second combining region -/

/-- The result buffer at the last boundary is the network of the launch arguments. -/
theorem result : W8 m ρ c (Proc.devRef .tc main_v50)
    = network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  calc W8 m ρ c (Proc.devRef .tc main_v50)
    _ = (dat2 (V7 m ρ) c).arrAt 5 cfg2.N := W8_arr m ρ c 5
    _ = Region2.stage (V7 m ρ) c := Region2.final (V7 m ρ) c
    _ = combine (F := Ideal) 0x3F183370#32 0x3ECF991F#32 (V7 m ρ c main_v46) (V7 m ρ c main_v48) (V7 m ρ c main_arg8)
          (V7 m ρ c main_arg9) (W6 m ρ c (Proc.devRef .tc main_arg10)) :=
        combine_eq _ _ _ _ _ _ _ _ (fun q => Stretches.before2_v49_entry (W6 m ρ c) q)
    _ = network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
        show _ = combine (F := Ideal) 0x3F183370#32 0x3ECF991F#32
          (aggregate (F := Ideal) (first m c) (col m c) (m ((c : Thread nD τ).loc main_arg1)) (m ((c : Thread nD τ).loc main_arg2))) (initial (F := Ideal) (feat m c)) (m ((c : Thread nD τ).loc main_arg8)) (m ((c : Thread nD τ).loc main_arg9)) (m ((c : Thread nD τ).loc main_arg10))
        rw [show V7 m ρ c main_v46 = _ from Stretches.before2_v46 (W6 m ρ c),
          show V7 m ρ c main_v48 = _ from Stretches.before2_v48 (W6 m ρ c),
          show V7 m ρ c main_arg8 = _ from Stretches.before2_arg8 (W6 m ρ c),
          show V7 m ρ c main_arg9 = _ from Stretches.before2_arg9 (W6 m ρ c),
          W6_v30, W6_v10, W6_v2, W6_arg1, W6_arg2, W6_arg8, W6_arg9, W6_arg10]

end Cert.KernelIdeal.Result

end
-- ==== Proof.lean ====
/-
  A two-layer graph network on 20000 nodes with 512 features and 320000 edges: the kernel computes the initial
  projection and the two layers' dense combinations in three pipelined regions (row blocks of 1000 nodes, matrix
  products on narrow-format operands accumulated into zero) and leaves the degree normalisation and the sparse
  aggregation to host operations; the reference computes everything by host operations.

  Over the extended reals the narrow format is the identity, a region's matrix product and the host's are both the
  sum over k of the products, and the two programs form each layer as the same expression in the same order,
  c₁·f + c₂·(f·w₁) + c₁·f₀ + c₂·(f₀·w₂) + b floored at 0, with the same words for c₁, c₂ (1 - log 2, log 2; then
  1 - log 1.5, log 1.5), 0.9 and 0.1.  So no law of the extended reals is needed beyond reading sums and products
  entry by entry, and the precondition is never opened: both results are one function, the network, of the eleven
  argument arrays.  The kernel's result is read off its run boundary by boundary (each region's output array is its
  dense stage of the arrays the region is entered from, since its twenty row blocks tile the array; the host
  operations in between are the network's own); the reference's run term is the network on the nose.

  The ideal pass rewrote nothing, so the preservation claim is empty.  The frames are the generated runs.
-/
import proofs.«175265_j53145925321199_1_alg».proof.Defs
import proofs.«175265_j53145925321199_1_alg».proof.Proof.Gen.Kernel
import proofs.«175265_j53145925321199_1_alg».proof.Proof.Gen.Kernel.Frame
import proofs.«175265_j53145925321199_1_alg».proof.Proof.Gen.KernelIdeal
import proofs.«175265_j53145925321199_1_alg».proof.Proof.Gen.KernelIdeal.Frame
import proofs.«175265_j53145925321199_1_alg».proof.Proof.Gen.ReferenceIdeal
import proofs.«175265_j53145925321199_1_alg».proof.Proof.Gen.ReferenceIdeal.Run
import proofs.«175265_j53145925321199_1_alg».proof.Proof.Gen.Pre_finite_inputs
import proofs.«175265_j53145925321199_1_alg».proof.Proof.GraphNet
import proofs.«175265_j53145925321199_1_alg».proof.Proof.ResultRun
import proofs.«175265_j53145925321199_1_alg».proof.Proof.KernelResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network of the argument arrays in their result buffers: the kernel's by its run read
    boundary by boundary, the reference's because its run term is the network; the arguments agree by hypothesis. -/
theorem algebraic : Cert.algebraic_KernelIdeal_ReferenceIdeal := by
  intro m ρ m' ρ' _ hagree
  refine ⟨fun c => Cert.GraphNet.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Result.result m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.GraphNet.reference_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
